-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v60) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16x64x64 : Shape := ⟨3, ![16, 64, 64]⟩
abbrev S16x64x3 : Shape := ⟨3, ![16, 64, 3]⟩
abbrev S_ : Shape := ⟨0, ![]⟩
abbrev S16x64x64x1 : Shape := ⟨4, ![16, 64, 64, 1]⟩
abbrev S16x64x1x64 : Shape := ⟨4, ![16, 64, 1, 64]⟩
abbrev S16x64x64x64 : Shape := ⟨4, ![16, 64, 64, 64]⟩

class Facts : Prop where
  bcast_S_S16x64x64 : S_.BroadcastsInDim S16x64x64 (![] : Fin 0 → Fin S16x64x64.rank)
  reducesTo_S16x64x64_S_d0_1_2 : S16x64x64.ReducesTo [0, 1, 2] S_
  h_S_ : 0 < S_.numel
  bcast_S_S16x64x3 : S_.BroadcastsInDim S16x64x3 (![] : Fin 0 → Fin S16x64x3.rank)
  reducesTo_S16x64x3_S_d0_1_2 : S16x64x3.ReducesTo [0, 1, 2] S_
  bcast_S16x64x64_S16x64x64x1_0_1_2 : S16x64x64.BroadcastsInDim S16x64x64x1 (![0, 1, 2] : Fin 3 → Fin S16x64x64x1.rank)
  bcast_S16x64x64_S16x64x1x64_0_1_3 : S16x64x64.BroadcastsInDim S16x64x1x64 (![0, 1, 3] : Fin 3 → Fin S16x64x1x64.rank)
  bcast_S16x64x64x1_S16x64x64x64_0_1_2_3 : S16x64x64x1.BroadcastsInDim S16x64x64x64 (![0, 1, 2, 3] : Fin 4 → Fin S16x64x64x64.rank)
  bcast_S16x64x1x64_S16x64x64x64_0_1_2_3 : S16x64x1x64.BroadcastsInDim S16x64x64x64 (![0, 1, 2, 3] : Fin 4 → Fin S16x64x64x64.rank)
  bcast_S_S16x64x64x64 : S_.BroadcastsInDim S16x64x64x64 (![] : Fin 0 → Fin S16x64x64x64.rank)
  reducesTo_S16x64x64x64_S_d0_1_2_3 : S16x64x64x64.ReducesTo [0, 1, 2, 3] S_

variable [Facts]

def fn_part1 {F : FTy → Type} [FloatOps F] (main_v13 : IVec S_ 1) (main_v16 : FVec F S16x64x64x64 .f32) (main_v17 : FVec F S16x64x64x64 .f32) : IVec S_ 1 :=
  let main_v18 : FVec F S16x64x64x64 .f32 := mulf main_v16 main_v17
  let main_cst_4 : FVec F S_ .f32 := constant S_ .f32 0x3727C5AC#32
  let main_v19 : FVec F S16x64x64x64 .f32 := broadcastInDim S16x64x64x64 ![] bcast_S_S16x64x64x64 main_cst_4
  let main_v20 : FVec F S16x64x64x64 .f32 := addf main_v18 main_v19
  let main_cst_5 : FVec F S_ .f32 := constant S_ .f32 0x00000000#32
  let main_v21 : FVec F S16x64x64x64 .f32 := broadcastInDim S16x64x64x64 ![] bcast_S_S16x64x64x64 main_cst_5
  let main_v22 : IVec S16x64x64x64 1 := cmpf .une main_v20 main_v21
  let main_c_6 : IVec S_ 1 := constantI S_ 1 1#1
  let main_v23 : IVec S_ 1 := (fun x v => Host.reduce IntOp.andi x v reducesTo_S16x64x64x64_S_d0_1_2_3 h_S_) main_v22 main_c_6
  let main_v24 : IVec S_ 1 := andi main_v13 main_v23
  main_v24

def fn {F : FTy → Type} [FloatOps F] (main_arg0 : FVec F S16x64x64 .f32) (main_arg1 : FVec F S16x64x64 .f32) (main_arg2 : FVec F S16x64x3 .f32) : IVec S_ 1 :=
  let main_v0 : FVec F S16x64x64 .f32 := Host.absf main_arg0
  let main_cst : FVec F S_ .f32 := constant S_ .f32 0x7F800000#32
  let main_v1 : FVec F S16x64x64 .f32 := broadcastInDim S16x64x64 ![] bcast_S_S16x64x64 main_cst
  let main_v2 : IVec S16x64x64 1 := cmpf .olt main_v0 main_v1
  let main_c : IVec S_ 1 := constantI S_ 1 1#1
  let main_v3 : IVec S_ 1 := (fun x v => Host.reduce IntOp.andi x v reducesTo_S16x64x64_S_d0_1_2 h_S_) main_v2 main_c
  let main_v4 : FVec F S16x64x64 .f32 := Host.absf main_arg1
  let main_cst_0 : FVec F S_ .f32 := constant S_ .f32 0x7F800000#32
  let main_v5 : FVec F S16x64x64 .f32 := broadcastInDim S16x64x64 ![] bcast_S_S16x64x64 main_cst_0
  let main_v6 : IVec S16x64x64 1 := cmpf .olt main_v4 main_v5
  let main_c_1 : IVec S_ 1 := constantI S_ 1 1#1
  let main_v7 : IVec S_ 1 := (fun x v => Host.reduce IntOp.andi x v reducesTo_S16x64x64_S_d0_1_2 h_S_) main_v6 main_c_1
  let main_v8 : IVec S_ 1 := andi main_v3 main_v7
  let main_v9 : FVec F S16x64x3 .f32 := Host.absf main_arg2
  let main_cst_2 : FVec F S_ .f32 := constant S_ .f32 0x7F800000#32
  let main_v10 : FVec F S16x64x3 .f32 := broadcastInDim S16x64x3 ![] bcast_S_S16x64x3 main_cst_2
  let main_v11 : IVec S16x64x3 1 := cmpf .olt main_v9 main_v10
  let main_c_3 : IVec S_ 1 := constantI S_ 1 1#1
  let main_v12 : IVec S_ 1 := (fun x v => Host.reduce IntOp.andi x v reducesTo_S16x64x3_S_d0_1_2 h_S_) main_v11 main_c_3
  let main_v13 : IVec S_ 1 := andi main_v8 main_v12
  let main_v14 : FVec F S16x64x64x1 .f32 := broadcastInDim S16x64x64x1 ![0, 1, 2] bcast_S16x64x64_S16x64x64x1_0_1_2 main_arg1
  let main_v15 : FVec F S16x64x1x64 .f32 := broadcastInDim S16x64x1x64 ![0, 1, 3] bcast_S16x64x64_S16x64x1x64_0_1_3 main_arg1
  let main_v16 : FVec F S16x64x64x64 .f32 := broadcastInDim S16x64x64x64 ![0, 1, 2, 3] bcast_S16x64x64x1_S16x64x64x64_0_1_2_3 main_v14
  let main_v17 : FVec F S16x64x64x64 .f32 := broadcastInDim S16x64x64x64 ![0, 1, 2, 3] bcast_S16x64x1x64_S16x64x64x64_0_1_2_3 main_v15
  fn_part1 (F := F) main_v13 main_v16 main_v17
-- ==== Kernel.lean ====
abbrev S16x64x64 : Shape := ⟨3, ![16, 64, 64]⟩
abbrev S16x64x3 : Shape := ⟨3, ![16, 64, 3]⟩
abbrev S16x64x6 : Shape := ⟨3, ![16, 64, 6]⟩
abbrev S1x64x64 : Shape := ⟨3, ![1, 64, 64]⟩
abbrev S1x64x3 : Shape := ⟨3, ![1, 64, 3]⟩
abbrev S1x64x6 : Shape := ⟨3, ![1, 64, 6]⟩
abbrev S64x64 : Shape := ⟨2, ![64, 64]⟩
abbrev S64x3 : Shape := ⟨2, ![64, 3]⟩
abbrev S64x1 : Shape := ⟨2, ![64, 1]⟩
abbrev S64 : Shape := ⟨1, ![64]⟩
abbrev S1x64 : Shape := ⟨2, ![1, 64]⟩
abbrev S64x1x1 : Shape := ⟨3, ![64, 1, 1]⟩
abbrev S64x64x1 : Shape := ⟨3, ![64, 64, 1]⟩
abbrev S64x1x64 : Shape := ⟨3, ![64, 1, 64]⟩
abbrev S64x64x64 : Shape := ⟨3, ![64, 64, 64]⟩
abbrev S1x64x1 : Shape := ⟨3, ![1, 64, 1]⟩

abbrev nBuf : Space → Nat
  | .hbm => 4
  | .vmem => 8
  | .smem => 0
  | _ => 0

abbrev bufTy : (tb : Table) → Fin (tcTables nBuf tb) → BufTy
  | .hbm, ⟨0, _⟩ => ⟨S16x64x64, .f32⟩
  | .hbm, ⟨1, _⟩ => ⟨S16x64x64, .f32⟩
  | .hbm, ⟨2, _⟩ => ⟨S16x64x3, .f32⟩
  | .hbm, ⟨3, _⟩ => ⟨S16x64x6, .f32⟩
  | .local _ .vmem, ⟨0, _⟩ => ⟨S1x64x64, .f32⟩
  | .local _ .vmem, ⟨1, _⟩ => ⟨S1x64x64, .f32⟩
  | .local _ .vmem, ⟨2, _⟩ => ⟨S1x64x64, .f32⟩
  | .local _ .vmem, ⟨3, _⟩ => ⟨S1x64x64, .f32⟩
  | .local _ .vmem, ⟨4, _⟩ => ⟨S1x64x3, .f32⟩
  | .local _ .vmem, ⟨5, _⟩ => ⟨S1x64x3, .f32⟩
  | .local _ .vmem, ⟨6, _⟩ => ⟨S1x64x6, .f32⟩
  | .local _ .vmem, ⟨7, _⟩ => ⟨S1x64x6, .f32⟩
  | _, _ => ⟨S16x64x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨1, ![16], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x64x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x64x64 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x64x3 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x64x6 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

class Facts₀ : Prop where
  inb_S1x64x64_S1x64x64_0_0_0 : ∀ a, (![0, 0, 0] : Fin 3 → Nat) a + S1x64x64.size a ≤ S1x64x64.size a
  h_S1x64x64 : 0 < S1x64x64.numel
  shapeCasts_S1x64x64_S64x64 : S1x64x64.ShapeCasts S64x64
  inb_S1x64x3_S1x64x3_0_0_0 : ∀ a, (![0, 0, 0] : Fin 3 → Nat) a + S1x64x3.size a ≤ S1x64x3.size a
  h_S1x64x3 : 0 < S1x64x3.numel
  shapeCasts_S1x64x3_S64x3 : S1x64x3.ShapeCasts S64x3
  slices_S64x3_o0_0_S64x1 : S64x3.Slices ![0, 0] S64x1
  shapeCasts_S64x1_S64 : S64x1.ShapeCasts S64
  slices_S64x3_o0_1_S64x1 : S64x3.Slices ![0, 1] S64x1
  slices_S64x3_o0_2_S64x1 : S64x3.Slices ![0, 2] S64x1
  shapeCasts_S64_S64x1 : S64.ShapeCasts S64x1
  shapeCasts_S64_S1x64 : S64.ShapeCasts S1x64
  broadcasts_S64x1_S64x64 : S64x1.Broadcasts S64x64
  broadcasts_S1x64_S64x64 : S1x64.Broadcasts S64x64
  shapeCasts_S64_S64x1x1 : S64.ShapeCasts S64x1x1
  shapeCasts_S64x64_S64x64x1 : S64x64.ShapeCasts S64x64x1
  broadcasts_S64x1x1_S64x64x1 : S64x1x1.Broadcasts S64x64x1
  shapeCasts_S64x64_S64x1x64 : S64x64.ShapeCasts S64x1x64
  broadcasts_S64x64x1_S64x64x64 : S64x64x1.Broadcasts S64x64x64
  broadcasts_S64x1x64_S64x64x64 : S64x1x64.Broadcasts S64x64x64
  shapeCasts_S64x64_S1x64x64 : S64x64.ShapeCasts S1x64x64
  broadcasts_S1x64x64_S64x64x64 : S1x64x64.Broadcasts S64x64x64
  reduces_S64x64x64_S64x64 : S64x64x64.Reduces [2] S64x64
  reduces_S64x64_S64 : S64x64.Reduces [1] S64
  inb_S1x64x6_S1x64x1_0_0_0 : ∀ a, (![0, 0, 0] : Fin 3 → Nat) a + S1x64x1.size a ≤ S1x64x6.size a
  h_S1x64x1 : 0 < S1x64x1.numel
  shapeCasts_S1x64x1_S64x1 : S1x64x1.ShapeCasts S64x1
  shapeCasts_S64x1_S1x64x1 : S64x1.ShapeCasts S1x64x1
  inb_S1x64x6_S1x64x1_0_0_1 : ∀ a, (![0, 0, 1] : Fin 3 → Nat) a + S1x64x1.size a ≤ S1x64x6.size a
  inb_S1x64x6_S1x64x1_0_0_2 : ∀ a, (![0, 0, 2] : Fin 3 → Nat) a + S1x64x1.size a ≤ S1x64x6.size a
  inb_S1x64x6_S1x64x1_0_0_3 : ∀ a, (![0, 0, 3] : Fin 3 → Nat) a + S1x64x1.size a ≤ S1x64x6.size a
  inb_S1x64x6_S1x64x1_0_0_4 : ∀ a, (![0, 0, 4] : Fin 3 → Nat) a + S1x64x1.size a ≤ S1x64x6.size a
  inb_S1x64x6_S1x64x1_0_0_5 : ∀ a, (![0, 0, 5] : Fin 3 → Nat) a + S1x64x1.size a ≤ S1x64x6.size a
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x64x64.size a ≤ S16x64x64.size a
  hwx0_0 : ∀ i : grid0.Coords, EltTy.bits .f32 = 32 ∨ (Rect.block (s := S16x64x64) S1x64x64.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x64x64.size a ≤ S16x64x64.size a
  hwx0_1 : ∀ i : grid0.Coords, EltTy.bits .f32 = 32 ∨ (Rect.block (s := S16x64x64) S1x64x64.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x64x3.size a ≤ S16x64x3.size a
  hwx0_2 : ∀ i : grid0.Coords, EltTy.bits .f32 = 32 ∨ (Rect.block (s := S16x64x3) S1x64x3.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x64x6.size a ≤ S16x64x6.size a
  hwx0_3 : ∀ i : grid0.Coords, EltTy.bits .f32 = 32 ∨ (Rect.block (s := S16x64x6) S1x64x6.size (cc0_transform_3 i) (hinb0_3 i)).WholeWords (EltTy.packing .f32)

variable [Facts₀]

abbrev win0_0 : Pipeline.Window sig grid0 :=
  Pipeline.Window.ofSpec (Memref.whole main_arg0) S1x64x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S1x64x64.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S1x64x3.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v0) S1x64x6.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S16x64x64 : Shape := ⟨3, ![16, 64, 64]⟩
abbrev S16x64x3 : Shape := ⟨3, ![16, 64, 3]⟩
abbrev S6 : Shape := ⟨1, ![6]⟩
abbrev S16x64x1x3 : Shape := ⟨4, ![16, 64, 1, 3]⟩
abbrev S16x1x64x3 : Shape := ⟨4, ![16, 1, 64, 3]⟩
abbrev S16x64x64x3 : Shape := ⟨4, ![16, 64, 64, 3]⟩
abbrev S16x64x64x1 : Shape := ⟨4, ![16, 64, 64, 1]⟩
abbrev S16x64x1x64 : Shape := ⟨4, ![16, 64, 1, 64]⟩
abbrev S16x1x64x64 : Shape := ⟨4, ![16, 1, 64, 64]⟩
abbrev S16x64x64x64 : Shape := ⟨4, ![16, 64, 64, 64]⟩
abbrev S_ : Shape := ⟨0, ![]⟩
abbrev S1x1x1x1x6 : Shape := ⟨5, ![1, 1, 1, 1, 6]⟩
abbrev S16x64x64x64x1 : Shape := ⟨5, ![16, 64, 64, 64, 1]⟩
abbrev S16x64x64x64x6 : Shape := ⟨5, ![16, 64, 64, 64, 6]⟩
abbrev S16x64x6 : Shape := ⟨3, ![16, 64, 6]⟩
abbrev S1x1x6 : Shape := ⟨3, ![1, 1, 6]⟩

abbrev nBuf : Space → Nat
  | .hbm => 72
  | .vmem => 0
  | .smem => 0
  | _ => 0

abbrev bufTy : (tb : Table) → Fin (tcTables nBuf tb) → BufTy
  | .hbm, ⟨0, _⟩ => ⟨S16x64x64, .f32⟩
  | .hbm, ⟨1, _⟩ => ⟨S16x64x64, .f32⟩
  | .hbm, ⟨2, _⟩ => ⟨S16x64x3, .f32⟩
  | .hbm, ⟨3, _⟩ => ⟨S6, .f32⟩
  | .hbm, ⟨4, _⟩ => ⟨S6, .f32⟩
  | .hbm, ⟨5, _⟩ => ⟨S6, .f32⟩
  | .hbm, ⟨6, _⟩ => ⟨S16x64x1x3, .f32⟩
  | .hbm, ⟨7, _⟩ => ⟨S16x1x64x3, .f32⟩
  | .hbm, ⟨8, _⟩ => ⟨S16x64x64x3, .f32⟩
  | .hbm, ⟨9, _⟩ => ⟨S16x64x64x3, .f32⟩
  | .hbm, ⟨10, _⟩ => ⟨S16x64x64x3, .f32⟩
  | .hbm, ⟨11, _⟩ => ⟨S16x64x64x1, .f32⟩
  | .hbm, ⟨12, _⟩ => ⟨S16x64x1x64, .f32⟩
  | .hbm, ⟨13, _⟩ => ⟨S16x1x64x64, .f32⟩
  | .hbm, ⟨14, _⟩ => ⟨S16x64x64x64, .f32⟩
  | .hbm, ⟨15, _⟩ => ⟨S16x64x64x64, .f32⟩
  | .hbm, ⟨16, _⟩ => ⟨S16x64x64x64, .f32⟩
  | .hbm, ⟨17, _⟩ => ⟨S16x64x64x64, .f32⟩
  | .hbm, ⟨18, _⟩ => ⟨S_, .f32⟩
  | .hbm, ⟨19, _⟩ => ⟨S16x64x64x64, .f32⟩
  | .hbm, ⟨20, _⟩ => ⟨S16x64x64x64, .f32⟩
  | .hbm, ⟨21, _⟩ => ⟨S16x64x64x64, .f32⟩
  | .hbm, ⟨22, _⟩ => ⟨S16x64x64x1, .f32⟩
  | .hbm, ⟨23, _⟩ => ⟨S16x64x1x64, .f32⟩
  | .hbm, ⟨24, _⟩ => ⟨S16x64x64x64, .f32⟩
  | .hbm, ⟨25, _⟩ => ⟨S16x64x64x64, .f32⟩
  | .hbm, ⟨26, _⟩ => ⟨S16x64x64x64, .f32⟩
  | .hbm, ⟨27, _⟩ => ⟨S16x1x64x64, .f32⟩
  | .hbm, ⟨28, _⟩ => ⟨S16x64x64x64, .f32⟩
  | .hbm, ⟨29, _⟩ => ⟨S16x64x64x64, .f32⟩
  | .hbm, ⟨30, _⟩ => ⟨S16x64x64x1, .f32⟩
  | .hbm, ⟨31, _⟩ => ⟨S16x64x1x64, .f32⟩
  | .hbm, ⟨32, _⟩ => ⟨S16x64x64x64, .f32⟩
  | .hbm, ⟨33, _⟩ => ⟨S16x64x64x64, .f32⟩
  | .hbm, ⟨34, _⟩ => ⟨S16x64x64x64, .f32⟩
  | .hbm, ⟨35, _⟩ => ⟨S16x1x64x64, .f32⟩
  | .hbm, ⟨36, _⟩ => ⟨S16x64x64x64, .f32⟩
  | .hbm, ⟨37, _⟩ => ⟨S16x64x64x64, .f32⟩
  | .hbm, ⟨38, _⟩ => ⟨S1x1x1x1x6, .f32⟩
  | .hbm, ⟨39, _⟩ => ⟨S1x1x1x1x6, .f32⟩
  | .hbm, ⟨40, _⟩ => ⟨S1x1x1x1x6, .f32⟩
  | .hbm, ⟨41, _⟩ => ⟨S16x64x64x64, .f32⟩
  | .hbm, ⟨42, _⟩ => ⟨S16x64x64x64x1, .f32⟩
  | .hbm, ⟨43, _⟩ => ⟨S16x64x64x64x6, .f32⟩
  | .hbm, ⟨44, _⟩ => ⟨S16x64x64x64x6, .f32⟩
  | .hbm, ⟨45, _⟩ => ⟨S16x64x64x64x6, .f32⟩
  | .hbm, ⟨46, _⟩ => ⟨S_, .f32⟩
  | .hbm, ⟨47, _⟩ => ⟨S16x64x64x64x6, .f32⟩
  | .hbm, ⟨48, _⟩ => ⟨S16x64x64x64x6, .f32⟩
  | .hbm, ⟨49, _⟩ => ⟨S16x64x64x64x6, .f32⟩
  | .hbm, ⟨50, _⟩ => ⟨S16x64x64x64x6, .f32⟩
  | .hbm, ⟨51, _⟩ => ⟨S1x1x1x1x6, .f32⟩
  | .hbm, ⟨52, _⟩ => ⟨S16x64x64x64x1, .f32⟩
  | .hbm, ⟨53, _⟩ => ⟨S16x64x64x64x6, .f32⟩
  | .hbm, ⟨54, _⟩ => ⟨S16x64x64x64x6, .f32⟩
  | .hbm, ⟨55, _⟩ => ⟨S16x64x64x64x6, .f32⟩
  | .hbm, ⟨56, _⟩ => ⟨S16x64x64x64x6, .f32⟩
  | .hbm, ⟨57, _⟩ => ⟨S16x64x64x64x6, .f32⟩
  | .hbm, ⟨58, _⟩ => ⟨S16x64x64x64x1, .f32⟩
  | .hbm, ⟨59, _⟩ => ⟨S16x64x64x64x6, .f32⟩
  | .hbm, ⟨60, _⟩ => ⟨S16x64x64x64x6, .f32⟩
  | .hbm, ⟨61, _⟩ => ⟨S_, .f32⟩
  | .hbm, ⟨62, _⟩ => ⟨S16x64x6, .f32⟩
  | .hbm, ⟨63, _⟩ => ⟨S1x1x6, .f32⟩
  | .hbm, ⟨64, _⟩ => ⟨S_, .f32⟩
  | .hbm, ⟨65, _⟩ => ⟨S1x1x6, .f32⟩
  | .hbm, ⟨66, _⟩ => ⟨S1x1x6, .f32⟩
  | .hbm, ⟨67, _⟩ => ⟨S_, .f32⟩
  | .hbm, ⟨68, _⟩ => ⟨S1x1x6, .f32⟩
  | .hbm, ⟨69, _⟩ => ⟨S1x1x6, .f32⟩
  | .hbm, ⟨70, _⟩ => ⟨S16x64x6, .f32⟩
  | .hbm, ⟨71, _⟩ => ⟨S16x64x6, .f32⟩
  | _, _ => ⟨S16x64x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_cst_0 : Ref sig .tc := ⟨.hbm, 4, rfl⟩
abbrev main_cst_1 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_cst_2 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_v24 : Ref sig .tc := ⟨.hbm, 31, rfl⟩
abbrev main_v25 : Ref sig .tc := ⟨.hbm, 32, rfl⟩
abbrev main_v26 : Ref sig .tc := ⟨.hbm, 33, rfl⟩
abbrev main_v27 : Ref sig .tc := ⟨.hbm, 34, rfl⟩
abbrev main_v28 : Ref sig .tc := ⟨.hbm, 35, rfl⟩
abbrev main_v29 : Ref sig .tc := ⟨.hbm, 36, rfl⟩
abbrev main_v30 : Ref sig .tc := ⟨.hbm, 37, rfl⟩
abbrev main_v31 : Ref sig .tc := ⟨.hbm, 38, rfl⟩
abbrev main_v32 : Ref sig .tc := ⟨.hbm, 39, rfl⟩
abbrev main_v33 : Ref sig .tc := ⟨.hbm, 40, rfl⟩
abbrev main_v34 : Ref sig .tc := ⟨.hbm, 41, rfl⟩
abbrev main_v35 : Ref sig .tc := ⟨.hbm, 42, rfl⟩
abbrev main_v36 : Ref sig .tc := ⟨.hbm, 43, rfl⟩
abbrev main_v37 : Ref sig .tc := ⟨.hbm, 44, rfl⟩
abbrev main_v38 : Ref sig .tc := ⟨.hbm, 45, rfl⟩
abbrev main_cst_3 : Ref sig .tc := ⟨.hbm, 46, rfl⟩
abbrev main_v39 : Ref sig .tc := ⟨.hbm, 47, rfl⟩
abbrev main_v40 : Ref sig .tc := ⟨.hbm, 48, rfl⟩
abbrev main_v41 : Ref sig .tc := ⟨.hbm, 49, rfl⟩
abbrev main_v42 : Ref sig .tc := ⟨.hbm, 50, rfl⟩
abbrev main_v43 : Ref sig .tc := ⟨.hbm, 51, rfl⟩
abbrev main_v44 : Ref sig .tc := ⟨.hbm, 52, rfl⟩
abbrev main_v45 : Ref sig .tc := ⟨.hbm, 53, rfl⟩
abbrev main_v46 : Ref sig .tc := ⟨.hbm, 54, rfl⟩
abbrev main_v47 : Ref sig .tc := ⟨.hbm, 55, rfl⟩
abbrev main_v48 : Ref sig .tc := ⟨.hbm, 56, rfl⟩
abbrev main_v49 : Ref sig .tc := ⟨.hbm, 57, rfl⟩
abbrev main_v50 : Ref sig .tc := ⟨.hbm, 58, rfl⟩
abbrev main_v51 : Ref sig .tc := ⟨.hbm, 59, rfl⟩
abbrev main_v52 : Ref sig .tc := ⟨.hbm, 60, rfl⟩
abbrev main_cst_4 : Ref sig .tc := ⟨.hbm, 61, rfl⟩
abbrev main_v53 : Ref sig .tc := ⟨.hbm, 62, rfl⟩
abbrev main_v54 : Ref sig .tc := ⟨.hbm, 63, rfl⟩
abbrev main_cst_5 : Ref sig .tc := ⟨.hbm, 64, rfl⟩
abbrev main_v55 : Ref sig .tc := ⟨.hbm, 65, rfl⟩
abbrev main_v56 : Ref sig .tc := ⟨.hbm, 66, rfl⟩
abbrev main_cst_6 : Ref sig .tc := ⟨.hbm, 67, rfl⟩
abbrev main_v57 : Ref sig .tc := ⟨.hbm, 68, rfl⟩
abbrev main_v58 : Ref sig .tc := ⟨.hbm, 69, rfl⟩
abbrev main_v59 : Ref sig .tc := ⟨.hbm, 70, rfl⟩
abbrev main_v60 : Ref sig .tc := ⟨.hbm, 71, rfl⟩

abbrev nD : Nat := 1
abbrev τ : Topo := Topo.v7x

variable {F : FTy → Type} [FloatOps F]

class Facts₀ : Prop where
  bcast_S16x64x3_S16x64x1x3_0_1_3 : S16x64x3.BroadcastsInDim S16x64x1x3 (![0, 1, 3] : Fin 3 → Fin S16x64x1x3.rank)
  bcast_S16x64x3_S16x1x64x3_0_2_3 : S16x64x3.BroadcastsInDim S16x1x64x3 (![0, 2, 3] : Fin 3 → Fin S16x1x64x3.rank)
  bcast_S16x64x1x3_S16x64x64x3_0_1_2_3 : S16x64x1x3.BroadcastsInDim S16x64x64x3 (![0, 1, 2, 3] : Fin 4 → Fin S16x64x64x3.rank)
  bcast_S16x1x64x3_S16x64x64x3_0_1_2_3 : S16x1x64x3.BroadcastsInDim S16x64x64x3 (![0, 1, 2, 3] : Fin 4 → Fin S16x64x64x3.rank)
  bcast_S16x64x64_S16x64x64x1_0_1_2 : S16x64x64.BroadcastsInDim S16x64x64x1 (![0, 1, 2] : Fin 3 → Fin S16x64x64x1.rank)
  bcast_S16x64x64_S16x64x1x64_0_1_3 : S16x64x64.BroadcastsInDim S16x64x1x64 (![0, 1, 3] : Fin 3 → Fin S16x64x1x64.rank)
  bcast_S16x64x64_S16x1x64x64_0_2_3 : S16x64x64.BroadcastsInDim S16x1x64x64 (![0, 2, 3] : Fin 3 → Fin S16x1x64x64.rank)
  bcast_S16x64x64x1_S16x64x64x64_0_1_2_3 : S16x64x64x1.BroadcastsInDim S16x64x64x64 (![0, 1, 2, 3] : Fin 4 → Fin S16x64x64x64.rank)
  bcast_S16x64x1x64_S16x64x64x64_0_1_2_3 : S16x64x1x64.BroadcastsInDim S16x64x64x64 (![0, 1, 2, 3] : Fin 4 → Fin S16x64x64x64.rank)
  bcast_S_S16x64x64x64 : S_.BroadcastsInDim S16x64x64x64 (![] : Fin 0 → Fin S16x64x64x64.rank)
  bcast_S16x1x64x64_S16x64x64x64_0_1_2_3 : S16x1x64x64.BroadcastsInDim S16x64x64x64 (![0, 1, 2, 3] : Fin 4 → Fin S16x64x64x64.rank)
  shapeCasts_S6_S1x1x1x1x6 : S6.ShapeCasts S1x1x1x1x6
  bcast_S16x64x64x64_S16x64x64x64x1_0_1_2_3 : S16x64x64x64.BroadcastsInDim S16x64x64x64x1 (![0, 1, 2, 3] : Fin 4 → Fin S16x64x64x64x1.rank)
  bcast_S1x1x1x1x6_S16x64x64x64x6_0_1_2_3_4 : S1x1x1x1x6.BroadcastsInDim S16x64x64x64x6 (![0, 1, 2, 3, 4] : Fin 5 → Fin S16x64x64x64x6.rank)
  bcast_S16x64x64x64x1_S16x64x64x64x6_0_1_2_3_4 : S16x64x64x64x1.BroadcastsInDim S16x64x64x64x6 (![0, 1, 2, 3, 4] : Fin 5 → Fin S16x64x64x64x6.rank)
  bcast_S_S16x64x64x64x6 : S_.BroadcastsInDim S16x64x64x64x6 (![] : Fin 0 → Fin S16x64x64x64x6.rank)
  reducesTo_S16x64x64x64x6_S16x64x6_d2_3 : S16x64x64x64x6.ReducesTo [2, 3] S16x64x6
  h_S_ : 0 < S_.numel
  shapeCasts_S6_S1x1x6 : S6.ShapeCasts S1x1x6
  bcast_S_S1x1x6 : S_.BroadcastsInDim S1x1x6 (![] : Fin 0 → Fin S1x1x6.rank)
  bcast_S1x1x6_S16x64x6_0_1_2 : S1x1x6.BroadcastsInDim S16x64x6 (![0, 1, 2] : Fin 3 → Fin S16x64x6.rank)
  dot_S16x64x64x3_S16x64x64x3_S16x64x64x64_3_3_2_2_01_01_wf : DotDims.WF S16x64x64x3 S16x64x64x3 S16x64x64x64 [3] [3] [2] [2] [0, 1] [0, 1]

variable [Facts₀]

def dot_S16x64x64x3_S16x64x64x3_S16x64x64x64_3_3_2_2_01_01 : DotDims S16x64x64x3 S16x64x64x3 S16x64x64x64 where
  lhsContracting := [3]
  rhsContracting := [3]
  lhsNonContracting := [2]
  rhsNonContracting := [2]
  lhsBatch := [0, 1]
  rhsBatch := [0, 1]
  wf := dot_S16x64x64x3_S16x64x64x3_S16x64x64x64_3_3_2_2_01_01_wf

class Facts : Prop extends Facts₀ where

variable [Facts]
-- ==== Proof.AngularSpec.lean ====
/-
  The angular symmetry function, written once as two formulas on the extended reals.

  For a batch element `b`, a centre atom `i` and an output channel `l` (its sign `λ_l ∈ {1, -1}` and its
  exponent `ζ_l ∈ {2, 4, 8}`), with `c` the atoms' coordinates, `d` the distance matrix and `w` the cutoff matrix,

      out(b, i, l) = 2^(1 - ζ_l) · Σ_j Σ_k (1 + λ_l · cos θ(i,j,k))^ζ_l · exp(-4 · (d_ij² + d_ik² + d_jk²)) · w_ij · w_ik · w_jk,
      θ(i,j,k) = ((c_i - c_j) · (c_i - c_k)) / (d_ij · d_ik + ε).

  `gramValue` spells it the way a Gram-matrix evaluation does: the numerator of θ as
  `|c_i|² - c_i·c_j - c_i·c_k + c_j·c_k`, the power by repeated squaring, the factor `2^(1 - ζ_l)` as a dyadic
  literal, and the sum over `k` inside the sum over `j`. `directValue` spells it the way the definition reads:
  the numerator as the dot product of the two displacement vectors, the power and the scale by the power
  function, and the sum started from a zero. Every literal is kept as the bit pattern that denotes it.
-/
import Idealize.ShloMosaic.PureOps.Ideal
import Idealize.ShloMosaic.Lib.ValueIdx

noncomputable section

open scoped BigOperators

namespace Cert.Angular

open Idealize.ShloMosaic Idealize.ShloMosaic.ValueIdx

/-- A `[16, 64, 64]` array of extended reals: the distance matrix or the cutoff matrix of every batch element. -/
abbrev Pairs := (⟨3, ![16, 64, 64]⟩ : Shape).Idx → EReal
/-- A `[16, 64, 3]` array of extended reals: the atoms' coordinates of every batch element. -/
abbrev Coords := (⟨3, ![16, 64, 3]⟩ : Shape).Idx → EReal

/-- The small positive constant added to the product of two distances under the quotient. -/
def eps : EReal := Ideal.ofBits .f32 0x3727C5AC#32
/-- The literals `0`, `1`, `-1`, `2`, `4`, `-4`. -/
def zero : EReal := Ideal.ofBits .f32 0x00000000#32
def one : EReal := Ideal.ofBits .f32 0x3F800000#32
def negOne : EReal := Ideal.ofBits .f32 0xBF800000#32
def two : EReal := Ideal.ofBits .f32 0x40000000#32
def four : EReal := Ideal.ofBits .f32 0x40800000#32
def negFour : EReal := Ideal.ofBits .f32 0xC0800000#32

/-- Channel `l`'s sign `λ_l`: `1` on the first three channels, `-1` on the last three. -/
def lamBits : Fin 6 → BitVec 32
  | 0 => 0x3F800000#32 | 1 => 0x3F800000#32 | 2 => 0x3F800000#32
  | 3 => 0xBF800000#32 | 4 => 0xBF800000#32 | 5 => 0xBF800000#32
/-- Channel `l`'s exponent `ζ_l`: `2, 4, 8, 2, 4, 8`. -/
def zetaBits : Fin 6 → BitVec 32
  | 0 => 0x40000000#32 | 1 => 0x40800000#32 | 2 => 0x41000000#32
  | 3 => 0x40000000#32 | 4 => 0x40800000#32 | 5 => 0x41000000#32
/-- Channel `l`'s scale `2^(1 - ζ_l)` as a dyadic literal: `1/2, 1/8, 1/128, 1/2, 1/8, 1/128`. -/
def scaleBits : Fin 6 → BitVec 32
  | 0 => 0x3F000000#32 | 1 => 0x3E000000#32 | 2 => 0x3C000000#32
  | 3 => 0x3F000000#32 | 4 => 0x3E000000#32 | 5 => 0x3C000000#32

def lam (l : Fin 6) : EReal := Ideal.ofBits .f32 (lamBits l)
def zeta (l : Fin 6) : EReal := Ideal.ofBits .f32 (zetaBits l)
def scale (l : Fin 6) : EReal := Ideal.ofBits .f32 (scaleBits l)

/-- `v^ζ_l` by repeated squaring: `v²`, `(v²)²`, `((v²)²)²`. -/
def sqPow (l : Fin 6) (v : EReal) : EReal :=
  match l with
  | 0 => v * v | 1 => (v * v) * (v * v) | 2 => ((v * v) * (v * v)) * ((v * v) * (v * v))
  | 3 => v * v | 4 => (v * v) * (v * v) | 5 => ((v * v) * (v * v)) * ((v * v) * (v * v))

/-- The Gram matrix entry `c_i · c_j` of batch element `b`, summed left to right over the three axes. -/
def gram (c : Coords) (b : Fin 16) (i j : Fin 64) : EReal :=
  (c (ix3 b i 0) * c (ix3 b j 0) + c (ix3 b i 1) * c (ix3 b j 1)) + c (ix3 b i 2) * c (ix3 b j 2)
/-- `|c_i|²`, summed left to right over the three axes. -/
def normSq (c : Coords) (b : Fin 16) (i : Fin 64) : EReal :=
  (c (ix3 b i 0) * c (ix3 b i 0) + c (ix3 b i 1) * c (ix3 b i 1)) + c (ix3 b i 2) * c (ix3 b i 2)
/-- The numerator of θ from the Gram matrix: `|c_i|² - c_i·c_j - c_i·c_k + c_j·c_k`. -/
def gramNum (c : Coords) (b : Fin 16) (i j k : Fin 64) : EReal :=
  ((normSq c b i - gram c b i j) - gram c b i k) + gram c b j k
/-- The numerator of θ as the dot product of the displacements `c_i - c_j` and `c_i - c_k`. -/
def dotNum (c : Coords) (b : Fin 16) (i j k : Fin 64) : EReal :=
  ∑ e : Fin 3, (c (ix3 b i e) - c (ix3 b j e)) * (c (ix3 b i e) - c (ix3 b k e))
/-- The denominator of θ: `d_ij · d_ik + ε`. -/
def den (d : Pairs) (b : Fin 16) (i j k : Fin 64) : EReal := d (ix3 b i j) * d (ix3 b i k) + eps
/-- `d_ij² + d_ik² + d_jk²`. -/
def sumSq (d : Pairs) (b : Fin 16) (i j k : Fin 64) : EReal :=
  (d (ix3 b i j) * d (ix3 b i j) + d (ix3 b i k) * d (ix3 b i k)) + d (ix3 b j k) * d (ix3 b j k)
/-- `w_ij · w_ik · w_jk`. -/
def cutoff (w : Pairs) (b : Fin 16) (i j k : Fin 64) : EReal := (w (ix3 b i j) * w (ix3 b i k)) * w (ix3 b j k)

/-- One term of the Gram-matrix spelling. -/
def gramTerm (w d : Pairs) (c : Coords) (b : Fin 16) (i : Fin 64) (l : Fin 6) (j k : Fin 64) : EReal :=
  sqPow l (one + lam l * Ideal.cos (Ideal.div (gramNum c b i j k) (den d b i j k)))
    * (Ideal.exp (negFour * sumSq d b i j k) * cutoff w b i j k)
/-- The Gram-matrix spelling of `out(b, i, l)`. -/
def gramValue (w d : Pairs) (c : Coords) (b : Fin 16) (i : Fin 64) (l : Fin 6) : EReal :=
  (∑ j : Fin 64, ∑ k : Fin 64, gramTerm w d c b i l j k) * scale l

/-- One term of the direct spelling. -/
def directTerm (w d : Pairs) (c : Coords) (b : Fin 16) (i : Fin 64) (l : Fin 6) (j k : Fin 64) : EReal :=
  (Ideal.pow (one + lam l * Ideal.cos (Ideal.div (dotNum c b i j k) (den d b i j k))) (zeta l)
      * Ideal.exp (-four * sumSq d b i j k))
    * cutoff w b i j k
/-- The direct spelling of `out(b, i, l)`. -/
def directValue (w d : Pairs) (c : Coords) (b : Fin 16) (i : Fin 64) (l : Fin 6) : EReal :=
  (zero + ∑ j : Fin 64, ∑ k : Fin 64, directTerm w d c b i l j k) * Ideal.pow two (one - zeta l)

end Cert.Angular

end
-- ==== Proof.LibKeepdims.lean ====
/-
  Column vectors read at an index: what a keepdims row reduction needs.

  A row reduction that keeps its axis (a sum along the lanes of an [a, b] array, kept as an [a, 1] column and
  spread back over [a, b]) prints as three operations: the lane sum [a, b] → [a], a shape cast [a] → [a, 1] and
  a broadcast [a, 1] → [a, b]. Each is read here at an index written with explicit coordinates:
    • the sum, at p, is ∑_k of the source at (p, k);
    • the cast, at (p, 0), is the vector at p (row-major position p · 1 + 0 = p on both sides);
    • the broadcast, at (p, q), is the column at (p, 0).
  All three are stated for any extents a and b.
-/
import Idealize.ShloMosaic.Lib.Pipeline.Value
import Idealize.ShloMosaic.Lib.ValueIdx
import Idealize.ShloMosaic.PureOps.Ideal.Laws

namespace Keepdims

open Idealize.ShloMosaic Idealize.ShloMosaic.ValueIdx

variable {α : Type}

/-- A vector of length a viewed as an [a, 1] column reads, at (p, z), the vector at p: the column's second
    coordinate can only be 0, so both indices sit at row-major position p. -/
theorem shapeCast_a_a1_apply {a : ℕ} (v : (⟨1, ![a]⟩ : Shape).Idx → α)
    (h : (⟨1, ![a]⟩ : Shape).ShapeCasts ⟨2, ![a, 1]⟩) (p : Fin a) (z : Fin 1) :
    shapeCast ⟨2, ![a, 1]⟩ v h (ix2 p z) = v (ix1 p) := by
  refine shapeCast_apply v h (ix2 p z) (ix1 p) ?_
  rw [Shape.rowMajor_val_one, Shape.rowMajor_val_two]
  show p.val = p.val * 1 + z.val
  have := z.isLt; omega

/-- An [a, 1] column spread over [a, b] reads, at (p, q), the column at (p, 0): the row coordinate is kept
    (also when a = 1, where it can only be 0) and the unit axis is read at 0. -/
theorem broadcastTo_a1_ab_apply {a b : ℕ} (v : (⟨2, ![a, 1]⟩ : Shape).Idx → α)
    (h : (⟨2, ![a, 1]⟩ : Shape).Broadcasts ⟨2, ![a, b]⟩) (p : Fin a) (q : Fin b) :
    broadcastTo ⟨2, ![a, b]⟩ v h (ix2 p q) = v (ix2 p (0 : Fin 1)) := by
  refine broadcastTo_apply v h (ix2 p q) (ix2 p (0 : Fin 1)) fun ax => ?_
  match ax with
  | ⟨0, _⟩ =>
    show p.val = if a = 1 then 0 else p.val
    split
    · have := p.isLt; omega
    · rfl
  | ⟨1, _⟩ => rfl

/-- The index of an [a, b] array that lies over p of the reduced [a] with lane k put back is (p, k). -/
theorem lift_lane {a b : ℕ} (h : (⟨2, ![a, b]⟩ : Shape).Reduces [1] (⟨1, ![a]⟩ : Shape)) (p : Fin a)
    (k : Fin ((⟨2, ![a, b]⟩ : Shape).size 1)) : h.lift (ix1 p) k = ix2 p (⟨k.val, k.isLt⟩ : Fin b) := by
  funext c; apply Fin.ext
  fin_cases c <;> rfl

/-- On the extended reals the sum of an [a, b] array along its lanes is, at p, the sum over k of the entries
    (p, k): the reduction starts from the zero word, the neutral element of the sum, and there is no rounding
    for the order of the additions to matter. -/
theorem laneSum_apply {a b : ℕ} (src : FVec Ideal ⟨2, ![a, b]⟩ .f32)
    (h : (⟨2, ![a, b]⟩ : Shape).Reduces [1] (⟨1, ![a]⟩ : Shape)) (hφ : FKind.Formats .f32)
    (hacc : (0x00000000#32 : BitVec 32) = 0x00000000#32) (p : Fin a) :
    multiReduction (F := Ideal) .add [1] ⟨1, ![a]⟩ src 0x00000000#32 h hφ hacc (ix1 p) = ∑ k : Fin b, src (ix2 p k) := by
  refine (Ideal.multiReduction_add_single src 0x00000000#32 h hφ hacc (ix1 p)).trans ?_
  exact Finset.sum_congr rfl fun k _ => congrArg src (lift_lane h p k)

end Keepdims
-- ==== Proof.LibLayout3.lean ====
/-
  Three layout operations on arrays of rank 3, read at an index written by its coordinates, for any extents:
  a matrix `[a, b]` given a unit middle axis `[a, 1, b]` reads the same entry; a `[1, b, c]` array broadcast to
  `[a, b, c]` reads its one slab; an `[a, 1, c]` array broadcast to `[a, b, c]` reads its one row per slab.
  (The row-major position of `(i, 0, j)` in `[a, 1, b]` is `(i·1 + 0)·b + j = i·b + j`, that of `(i, j)` in `[a, b]`.)
-/
import Idealize.ShloMosaic.Lib.Pipeline.Value
import Idealize.ShloMosaic.Lib.ValueIdx

namespace Layout3

open Idealize.ShloMosaic Idealize.ShloMosaic.ValueIdx

variable {α : Type}

/-- An `[a, b]` array cast to `[a, 1, b]` reads, at `(i, u, j)`, the operand at `(i, j)`. -/
theorem shapeCast_ab_a1b_apply {a b : ℕ} (x : (⟨2, ![a, b]⟩ : Shape).Idx → α)
    (h : (⟨2, ![a, b]⟩ : Shape).ShapeCasts ⟨3, ![a, 1, b]⟩) (i : Fin a) (u : Fin 1) (j : Fin b) :
    shapeCast ⟨3, ![a, 1, b]⟩ x h (ix3 i u j) = x (ix2 i j) :=
  shapeCast_apply x h _ _ (by
    have hu : u.val = 0 := by omega
    rw [Shape.rowMajor_val_three, Shape.rowMajor_val_two]
    show i.val * b + j.val = (i.val * 1 + u.val) * b + j.val
    rw [hu, Nat.mul_one, Nat.add_zero])

/-- A `[1, b, c]` array broadcast to `[a, b, c]` reads, at `(i, j, k)`, the operand's one slab at `(j, k)`. -/
theorem broadcastTo_1bc_abc_apply {a b c : ℕ} (v : (⟨3, ![1, b, c]⟩ : Shape).Idx → α)
    (h : (⟨3, ![1, b, c]⟩ : Shape).Broadcasts ⟨3, ![a, b, c]⟩) (i : Fin a) (j : Fin b) (k : Fin c) :
    broadcastTo ⟨3, ![a, b, c]⟩ v h (ix3 i j k) = v (ix3 (0 : Fin 1) j k) := by
  refine broadcastTo_apply v h (ix3 i j k) (ix3 (0 : Fin 1) j k) fun ax => ?_
  match ax with
  | ⟨0, _⟩ => rfl
  | ⟨1, _⟩ =>
    show j.val = if b = 1 then 0 else j.val
    split
    · have := j.isLt; omega
    · rfl
  | ⟨2, _⟩ =>
    show k.val = if c = 1 then 0 else k.val
    split
    · have := k.isLt; omega
    · rfl

/-- An `[a, 1, c]` array broadcast to `[a, b, c]` reads, at `(i, j, k)`, the operand's one row of slab `i` at `k`. -/
theorem broadcastTo_a1c_abc_apply {a b c : ℕ} (v : (⟨3, ![a, 1, c]⟩ : Shape).Idx → α)
    (h : (⟨3, ![a, 1, c]⟩ : Shape).Broadcasts ⟨3, ![a, b, c]⟩) (i : Fin a) (j : Fin b) (k : Fin c) :
    broadcastTo ⟨3, ![a, b, c]⟩ v h (ix3 i j k) = v (ix3 i (0 : Fin 1) k) := by
  refine broadcastTo_apply v h (ix3 i j k) (ix3 i (0 : Fin 1) k) fun ax => ?_
  match ax with
  | ⟨0, _⟩ =>
    show i.val = if a = 1 then 0 else i.val
    split
    · have := i.isLt; omega
    · rfl
  | ⟨1, _⟩ => rfl
  | ⟨2, _⟩ =>
    show k.val = if c = 1 then 0 else k.val
    split
    · have := k.isLt; omega
    · rfl

end Layout3
-- ==== Proof.LibTrailingUnit.lean ====
/-
  Layout operations that add, drop or spread a TRAILING unit axis, and the sum along the last axis of a rank-3
  array, each read at an index written by its coordinates, for any extents.

  A trailing unit axis does not move an entry's row-major position: `(i)` in `[a]`, `(i, 0)` in `[a, 1]` and
  `(i, 0, 0)` in `[a, 1, 1]` all sit at position `i`, and `(i, j)` in `[a, b]` sits where `(i, j, 0)` does in
  `[a, b, 1]`. A broadcast reads a unit axis of its operand at 0 and keeps every other coordinate. On the extended
  reals the sum of an `[a, b, c]` array along its last axis is, at `(i, j)`, the sum over `k` of the entries `(i, j, k)`.
-/
import Idealize.ShloMosaic.Lib.Pipeline.Value
import Idealize.ShloMosaic.Lib.ValueIdx
import Idealize.ShloMosaic.PureOps.Ideal.Laws

namespace TrailingUnit

open Idealize.ShloMosaic Idealize.ShloMosaic.ValueIdx

variable {α : Type}

/-- An `[a, 1]` column cast to a vector `[a]` reads, at `i`, the column at `(i, 0)`. -/
theorem shapeCast_a1_a_apply {a : ℕ} (x : (⟨2, ![a, 1]⟩ : Shape).Idx → α)
    (h : (⟨2, ![a, 1]⟩ : Shape).ShapeCasts ⟨1, ![a]⟩) (i : Fin a) :
    shapeCast ⟨1, ![a]⟩ x h (ix1 i) = x (ix2 i (0 : Fin 1)) :=
  shapeCast_apply x h _ _ (by
    rw [Shape.rowMajor_val_two, Shape.rowMajor_val_one]
    show i.val * 1 + 0 = i.val
    rw [Nat.mul_one, Nat.add_zero])

/-- A vector `[a]` cast to `[a, 1, 1]` reads, at `(i, u, z)`, the vector at `i`. -/
theorem shapeCast_a_a11_apply {a : ℕ} (x : (⟨1, ![a]⟩ : Shape).Idx → α)
    (h : (⟨1, ![a]⟩ : Shape).ShapeCasts ⟨3, ![a, 1, 1]⟩) (i : Fin a) (u z : Fin 1) :
    shapeCast ⟨3, ![a, 1, 1]⟩ x h (ix3 i u z) = x (ix1 i) :=
  shapeCast_apply x h _ _ (by
    have hu : u.val = 0 := by omega
    have hz : z.val = 0 := by omega
    rw [Shape.rowMajor_val_three, Shape.rowMajor_val_one]
    show i.val = (i.val * 1 + u.val) * 1 + z.val
    omega)

/-- An `[a, b]` array cast to `[a, b, 1]` reads, at `(i, j, z)`, the operand at `(i, j)`. -/
theorem shapeCast_ab_ab1_apply {a b : ℕ} (x : (⟨2, ![a, b]⟩ : Shape).Idx → α)
    (h : (⟨2, ![a, b]⟩ : Shape).ShapeCasts ⟨3, ![a, b, 1]⟩) (i : Fin a) (j : Fin b) (z : Fin 1) :
    shapeCast ⟨3, ![a, b, 1]⟩ x h (ix3 i j z) = x (ix2 i j) :=
  shapeCast_apply x h _ _ (by
    have hz : z.val = 0 := by omega
    rw [Shape.rowMajor_val_three, Shape.rowMajor_val_two]
    show i.val * b + j.val = (i.val * b + j.val) * 1 + z.val
    rw [hz, Nat.mul_one, Nat.add_zero])

/-- An `[a, 1, 1]` array broadcast to `[a, b, 1]` reads, at `(i, j, z)`, the operand at `(i, 0, 0)`. -/
theorem broadcastTo_a11_ab1_apply {a b : ℕ} (v : (⟨3, ![a, 1, 1]⟩ : Shape).Idx → α)
    (h : (⟨3, ![a, 1, 1]⟩ : Shape).Broadcasts ⟨3, ![a, b, 1]⟩) (i : Fin a) (j : Fin b) (z : Fin 1) :
    broadcastTo ⟨3, ![a, b, 1]⟩ v h (ix3 i j z) = v (ix3 i (0 : Fin 1) (0 : Fin 1)) := by
  refine broadcastTo_apply v h (ix3 i j z) (ix3 i (0 : Fin 1) (0 : Fin 1)) fun ax => ?_
  match ax with
  | ⟨0, _⟩ =>
    show i.val = if a = 1 then 0 else i.val
    split
    · have := i.isLt; omega
    · rfl
  | ⟨1, _⟩ => rfl
  | ⟨2, _⟩ => rfl

/-- An `[a, b, 1]` array broadcast to `[a, b, c]` reads, at `(i, j, k)`, the operand at `(i, j, 0)`. -/
theorem broadcastTo_ab1_abc_apply {a b c : ℕ} (v : (⟨3, ![a, b, 1]⟩ : Shape).Idx → α)
    (h : (⟨3, ![a, b, 1]⟩ : Shape).Broadcasts ⟨3, ![a, b, c]⟩) (i : Fin a) (j : Fin b) (k : Fin c) :
    broadcastTo ⟨3, ![a, b, c]⟩ v h (ix3 i j k) = v (ix3 i j (0 : Fin 1)) := by
  refine broadcastTo_apply v h (ix3 i j k) (ix3 i j (0 : Fin 1)) fun ax => ?_
  match ax with
  | ⟨0, _⟩ =>
    show i.val = if a = 1 then 0 else i.val
    split
    · have := i.isLt; omega
    · rfl
  | ⟨1, _⟩ =>
    show j.val = if b = 1 then 0 else j.val
    split
    · have := j.isLt; omega
    · rfl
  | ⟨2, _⟩ => rfl

/-- The index of an `[a, b, c]` array that lies over `(i, j)` of the reduced `[a, b]` with the last coordinate
    `k` put back is `(i, j, k)`. -/
theorem lift_last {a b c : ℕ} (h : (⟨3, ![a, b, c]⟩ : Shape).Reduces [2] (⟨2, ![a, b]⟩ : Shape)) (i : Fin a) (j : Fin b)
    (k : Fin ((⟨3, ![a, b, c]⟩ : Shape).size 2)) : h.lift (ix2 i j) k = ix3 i j (⟨k.val, k.isLt⟩ : Fin c) := by
  funext ax; apply Fin.ext
  fin_cases ax <;> rfl

/-- On the extended reals the sum of an `[a, b, c]` array along its last axis is, at `(i, j)`, the sum over `k` of
    the entries `(i, j, k)`: the reduction starts from the zero word, the neutral element of the sum. -/
theorem lastSum_apply {a b c : ℕ} (src : FVec Ideal ⟨3, ![a, b, c]⟩ .f32)
    (h : (⟨3, ![a, b, c]⟩ : Shape).Reduces [2] (⟨2, ![a, b]⟩ : Shape)) (hφ : FKind.Formats .f32)
    (hacc : (0x00000000#32 : BitVec 32) = 0x00000000#32) (i : Fin a) (j : Fin b) :
    multiReduction (F := Ideal) .add [2] ⟨2, ![a, b]⟩ src 0x00000000#32 h hφ hacc (ix2 i j) = ∑ k : Fin c, src (ix3 i j k) := by
  refine (Ideal.multiReduction_add_single src 0x00000000#32 h hφ hacc (ix2 i j)).trans ?_
  exact Finset.sum_congr rfl fun k _ => congrArg src (lift_last h i j k)

/-- The same sum with the starting word's neutrality stated against the sum's neutral element, the form in which a
    printed reduction carries it. -/
theorem lastSum_neutral_apply {a b c : ℕ} (src : FVec Ideal ⟨3, ![a, b, c]⟩ .f32)
    (h : (⟨3, ![a, b, c]⟩ : Shape).Reduces [2] (⟨2, ![a, b]⟩ : Shape)) (hφ : FKind.Formats .f32)
    (hacc : (0x00000000#32 : BitVec 32) = FKind.add.neutral .f32 hφ) (i : Fin a) (j : Fin b) :
    multiReduction (F := Ideal) .add [2] ⟨2, ![a, b]⟩ src 0x00000000#32 h hφ hacc (ix2 i j) = ∑ k : Fin c, src (ix3 i j k) := by
  refine (Ideal.multiReduction_add_single src 0x00000000#32 h hφ hacc (ix2 i j)).trans ?_
  exact Finset.sum_congr rfl fun k _ => congrArg src (lift_last h i j k)

/-- The index of an `[a, b]` array that lies over `i` of the reduced `[a]` with the last coordinate `k` put back
    is `(i, k)`. -/
theorem lift_row {a b : ℕ} (h : (⟨2, ![a, b]⟩ : Shape).Reduces [1] (⟨1, ![a]⟩ : Shape)) (i : Fin a)
    (k : Fin ((⟨2, ![a, b]⟩ : Shape).size 1)) : h.lift (ix1 i) k = ix2 i (⟨k.val, k.isLt⟩ : Fin b) := by
  funext ax; apply Fin.ext
  fin_cases ax <;> rfl

/-- On the extended reals the sum of an `[a, b]` array along its last axis is, at `i`, the sum over `k` of the
    entries `(i, k)`, with the starting word's neutrality stated against the sum's neutral element. -/
theorem rowSum_neutral_apply {a b : ℕ} (src : FVec Ideal ⟨2, ![a, b]⟩ .f32)
    (h : (⟨2, ![a, b]⟩ : Shape).Reduces [1] (⟨1, ![a]⟩ : Shape)) (hφ : FKind.Formats .f32)
    (hacc : (0x00000000#32 : BitVec 32) = FKind.add.neutral .f32 hφ) (i : Fin a) :
    multiReduction (F := Ideal) .add [1] ⟨1, ![a]⟩ src 0x00000000#32 h hφ hacc (ix1 i) = ∑ k : Fin b, src (ix2 i k) := by
  refine (Ideal.multiReduction_add_single src 0x00000000#32 h hφ hacc (ix1 i)).trans ?_
  exact Finset.sum_congr rfl fun k _ => congrArg src (lift_row h i k)

end TrailingUnit
-- ==== Proof.BodyValues.lean ====
/-
  What the kernel's body leaves in its output block, entry by entry, on the extended reals.

  One grid point holds batch element `b`: the blocks `x0`, `x1`, `x2` are slab `b` of the cutoff matrix `w`, the
  distance matrix `d` and the coordinates `c`. From them the body forms, for every centre atom `i` and every pair
  `(j, k)`: the numerator of θ out of the Gram matrix of the coordinates (`|c_i|² - c_i·c_j - c_i·c_k + c_j·c_k`,
  the Gram matrix and its diagonal built from the three coordinate columns), the product `d_ij · d_ik`, the cosine
  of their quotient with ε added below, and the factor `exp(-4 (d_ij² + d_ik² + d_jk²)) · w_ij w_ik w_jk` that every
  channel shares. For the sign `λ = 1` and again for `λ = -1` it squares `1 + λ cos θ` once, twice and three times,
  multiplies each power by the shared factor, sums over `k`, then over `j`, scales by the dyadic `2^(1 - ζ)` and
  stores the result as one column of the `[1, 64, 6]` block. Read at `(0, i, l)`, the block is the Gram-matrix
  spelling `gramValue w d c b i l` of the angular symmetry function (`out_apply`).

  Every layout operation on the way (shape casts that add or drop unit axes, broadcasts along them, column
  slices) only renames an index, and both sums are plain finite sums.
-/
import proofs.«175770_j68315749810414_2_alg».proof.Proof.Gen.KernelIdeal.Skeleton
import proofs.«175770_j68315749810414_2_alg».proof.Proof.AngularSpec
import proofs.«175770_j68315749810414_2_alg».proof.Proof.LibKeepdims
import proofs.«175770_j68315749810414_2_alg».proof.Proof.LibLayout3
import proofs.«175770_j68315749810414_2_alg».proof.Proof.LibTrailingUnit
import Idealize.ShloMosaic.Lib.ValueLayout
import proofs.«175770_j68315749810414_2_alg».proof.Proof.Gen.KernelIdeal.Frame

noncomputable section

open scoped BigOperators

namespace Cert.KernelIdeal.Body

open Cert.KernelIdeal Cert.KernelIdeal.Gen Idealize.ShloMosaic Idealize.ShloMosaic.ValueIdx
open Keepdims Layout3 TrailingUnit Cert.Angular

variable {α : Type}

/-! ## Small readings -/

/-- The cosine and the exponential of a vector are taken entry by entry. -/
theorem cos_apply {s : Shape} {φ : FTy} (a : FVec Ideal s φ) (i : s.Idx) : cos a i = Ideal.cos (a i) := rfl
theorem exp_apply {s : Shape} {φ : FTy} (a : FVec Ideal s φ) (i : s.Idx) : exp a i = Ideal.exp (a i) := rfl
/-- A scalar literal denotes what its bit pattern denotes. -/
theorem scalar_ofBits (b : BitVec 32) : (Scalar.ofBits (F := Ideal) .f32 b) = Ideal.ofBits .f32 b := rfl

/-- Column `e` of an `[a, 3]` array, cut out as an `[a, 1]` column, reads the array at `(p, e)`. -/
theorem col0 {a : ℕ} (X : (⟨2, ![a, 3]⟩ : Shape).Idx → α) (h : (⟨2, ![a, 3]⟩ : Shape).Slices ![0, 0] ⟨2, ![a, 1]⟩) (p : Fin a) (z : Fin 1) :
    extractStridedSlice ⟨2, ![a, 1]⟩ ![0, 0] X h (ix2 p z) = X (ix2 p (0 : Fin 3)) :=
  slice2_axis1_apply 0 X h p z 0 (by have := z.isLt; show 0 = 0 + z.val; omega)
theorem col1 {a : ℕ} (X : (⟨2, ![a, 3]⟩ : Shape).Idx → α) (h : (⟨2, ![a, 3]⟩ : Shape).Slices ![0, 1] ⟨2, ![a, 1]⟩) (p : Fin a) (z : Fin 1) :
    extractStridedSlice ⟨2, ![a, 1]⟩ ![0, 1] X h (ix2 p z) = X (ix2 p (1 : Fin 3)) :=
  slice2_axis1_apply 1 X h p z 1 (by have := z.isLt; show 1 = 1 + z.val; omega)
theorem col2 {a : ℕ} (X : (⟨2, ![a, 3]⟩ : Shape).Idx → α) (h : (⟨2, ![a, 3]⟩ : Shape).Slices ![0, 2] ⟨2, ![a, 1]⟩) (p : Fin a) (z : Fin 1) :
    extractStridedSlice ⟨2, ![a, 1]⟩ ![0, 2] X h (ix2 p z) = X (ix2 p (2 : Fin 3)) :=
  slice2_axis1_apply 2 X h p z 2 (by have := z.isLt; show 2 = 2 + z.val; omega)

/-! ## The body's intermediate arrays at an index

`x0`, `x1`, `x2` are the blocks of the cutoff matrix, the distance matrix and the coordinates that one grid point
holds: block `b` of the arrays `w`, `d`, `c`. -/

section
variable (x0 x1 : Vec Ideal S1x64x64 .f32) (x2 : Vec Ideal S1x64x3 .f32) (w d : Pairs) (c : Coords) (b : Fin 16)
variable (hw : ∀ p q : Fin 64, x0 (ix3 (0 : Fin 1) p q) = w (ix3 b p q))
variable (hd : ∀ p q : Fin 64, x1 (ix3 (0 : Fin 1) p q) = d (ix3 b p q))
variable (hc : ∀ (p : Fin 64) (e : Fin 3), x2 (ix3 (0 : Fin 1) p e) = c (ix3 b p e))
include hw in
/-- The cutoff block as a matrix. -/
theorem pay3_apply (p q : Fin 64) : k0_pay3 (F := Ideal) x0 (ix2 p q) = w (ix3 b p q) := by
  unfold k0_pay3
  simp only [shapeCast_1ab_ab_apply, hw]
include hd in
/-- The distance block as a matrix. -/
theorem pay4_apply (p q : Fin 64) : k0_pay4 (F := Ideal) x1 (ix2 p q) = d (ix3 b p q) := by
  unfold k0_pay4
  simp only [shapeCast_1ab_ab_apply, hd]
include hc in
/-- The numerator of θ, from the Gram matrix of the block's coordinates. -/
theorem pay5_apply (i j k : Fin 64) : k0_pay5 (F := Ideal) x2 (ix3 i j k) = gramNum c b i j k := by
  unfold k0_pay5
  simp only [addf_apply, subf_apply, mulf_apply, broadcastTo_1bc_abc_apply, broadcastTo_a1c_abc_apply, broadcastTo_ab1_abc_apply,
    broadcastTo_a11_ab1_apply, shapeCast_ab_ab1_apply, shapeCast_ab_a1b_apply, shapeCast_ab_1ab_apply, shapeCast_a_a11_apply,
    broadcastTo_a1_ab_apply, broadcastTo_1b_ab_apply, shapeCast_a_a1_apply, shapeCast_a_1a_apply, shapeCast_a1_a_apply,
    col0, col1, col2, shapeCast_1ab_ab_apply, hc]
  rfl
include hd in
/-- The product of the two distances under the quotient. -/
theorem pay6_apply (i j k : Fin 64) : k0_pay6 (F := Ideal) x1 (ix3 i j k) = d (ix3 b i j) * d (ix3 b i k) := by
  unfold k0_pay6
  simp only [mulf_apply, broadcastTo_a1c_abc_apply, broadcastTo_ab1_abc_apply, shapeCast_ab_ab1_apply, shapeCast_ab_a1b_apply,
    pay4_apply x1 d b hd]
end

/-- The cosine of the quotient. -/
theorem pay7_apply (v44 v49 : FVec Ideal S64x64x64 .f32) (i j k : Fin 64) :
    k0_pay7 (F := Ideal) v44 v49 (ix3 i j k) = Ideal.cos (Ideal.div (v44 (ix3 i j k)) (v49 (ix3 i j k) + eps)) := by
  unfold k0_pay7
  simp only [cos_apply, divf_apply, addf_apply, broadcast_apply, scalar_ofBits]
  rfl

/-- The factor every channel shares: the exponential of minus four times the three squared distances, times the
    three cutoffs. -/
theorem pay8_apply (v1 v3 : FVec Ideal S64x64 .f32) (i j k : Fin 64) :
    k0_pay8 (F := Ideal) v1 v3 (ix3 i j k)
      = Ideal.exp (negFour * ((v3 (ix2 i j) * v3 (ix2 i j) + v3 (ix2 i k) * v3 (ix2 i k)) + v3 (ix2 j k) * v3 (ix2 j k)))
        * ((v1 (ix2 i j) * v1 (ix2 i k)) * v1 (ix2 j k)) := by
  unfold k0_pay8
  simp only [exp_apply, addf_apply, mulf_apply, broadcast_apply, scalar_ofBits, broadcastTo_1bc_abc_apply, broadcastTo_a1c_abc_apply,
    broadcastTo_ab1_abc_apply, shapeCast_ab_ab1_apply, shapeCast_ab_a1b_apply, shapeCast_ab_1ab_apply]
  rfl

/-- The squares `(1 + 1·cos θ)²`, its square and the square of that. -/
theorem pay9_apply (v44 v49 : FVec Ideal S64x64x64 .f32) (i j k : Fin 64) :
    k0_pay9 (F := Ideal) v44 v49 (ix3 i j k)
      = (one + one * k0_pay7 v44 v49 (ix3 i j k)) * (one + one * k0_pay7 v44 v49 (ix3 i j k)) := by
  unfold k0_pay9
  simp only [addf_apply, mulf_apply, broadcast_apply, scalar_ofBits]
  rfl
theorem pay10_apply (v44 v49 : FVec Ideal S64x64x64 .f32) (i j k : Fin 64) :
    k0_pay10 (F := Ideal) v44 v49 (ix3 i j k) = k0_pay9 v44 v49 (ix3 i j k) * k0_pay9 v44 v49 (ix3 i j k) := by
  unfold k0_pay10
  simp only [mulf_apply]
theorem pay11_apply (v44 v49 : FVec Ideal S64x64x64 .f32) (i j k : Fin 64) :
    k0_pay11 (F := Ideal) v44 v49 (ix3 i j k) = k0_pay10 v44 v49 (ix3 i j k) * k0_pay10 v44 v49 (ix3 i j k) := by
  unfold k0_pay11
  simp only [mulf_apply]

/-- The squares `(1 + (-1)·cos θ)²`, its square and the square of that. -/
theorem pay17_apply (v53 : FVec Ideal S64x64x64 .f32) (i j k : Fin 64) :
    k0_pay17 (F := Ideal) v53 (ix3 i j k) = (one + negOne * v53 (ix3 i j k)) * (one + negOne * v53 (ix3 i j k)) := by
  unfold k0_pay17
  simp only [addf_apply, mulf_apply, broadcast_apply, scalar_ofBits]
  rfl
theorem pay18_apply (v53 : FVec Ideal S64x64x64 .f32) (i j k : Fin 64) :
    k0_pay18 (F := Ideal) v53 (ix3 i j k) = k0_pay17 v53 (ix3 i j k) * k0_pay17 v53 (ix3 i j k) := by
  unfold k0_pay18
  simp only [mulf_apply]
theorem pay19_apply (v53 : FVec Ideal S64x64x64 .f32) (i j k : Fin 64) :
    k0_pay19 (F := Ideal) v53 (ix3 i j k) = k0_pay18 v53 (ix3 i j k) * k0_pay18 v53 (ix3 i j k) := by
  unfold k0_pay19
  simp only [mulf_apply]

/-- The sum over `k` and then over `j` of a `[64, 64, 64]` array, at `i`: the double sum of the entries `(i, j, k)`. -/
theorem doubleSum_apply (src : FVec Ideal S64x64x64 .f32) (h2 : S64x64x64.Reduces [2] S64x64) (h1 : S64x64.Reduces [1] S64)
    (hφ : FKind.Formats .f32) (hacc : (0x00000000#32 : BitVec 32) = FKind.add.neutral .f32 hφ)
    (hφ' : FKind.Formats .f32) (hacc' : (0x00000000#32 : BitVec 32) = FKind.add.neutral .f32 hφ') (i : Fin 64) :
    multiReduction (F := Ideal) .add [1] S64 (multiReduction (F := Ideal) .add [2] S64x64 src 0x00000000#32 h2 hφ hacc) 0x00000000#32 h1 hφ' hacc' (ix1 i)
      = ∑ j : Fin 64, ∑ k : Fin 64, src (ix3 i j k) :=
  (rowSum_neutral_apply _ h1 hφ' hacc' i).trans (Finset.sum_congr rfl fun j _ => lastSum_neutral_apply src h2 hφ hacc i j)

/-! ## The six stored columns -/

section
variable (x0 x1 : Vec Ideal S1x64x64 .f32) (x2 : Vec Ideal S1x64x3 .f32) (w d : Pairs) (c : Coords) (b : Fin 16)
variable (hw : ∀ p q : Fin 64, x0 (ix3 (0 : Fin 1) p q) = w (ix3 b p q))
variable (hd : ∀ p q : Fin 64, x1 (ix3 (0 : Fin 1) p q) = d (ix3 b p q))
variable (hc : ∀ (p : Fin 64) (e : Fin 3), x2 (ix3 (0 : Fin 1) p e) = c (ix3 b p e))

include hd hc in
/-- cos θ at `(i, j, k)`, over the block's arrays. -/
theorem cosTheta_apply (i j k : Fin 64) :
    k0_pay7 (F := Ideal) (k0_pay5 x2) (k0_pay6 x1) (ix3 i j k) = Ideal.cos (Ideal.div (gramNum c b i j k) (den d b i j k)) := by
  rw [pay7_apply, pay5_apply x2 c b hc, pay6_apply x1 d b hd]
  rfl
include hw hd in
/-- The shared factor at `(i, j, k)`, over the block's arrays. -/
theorem base_apply (i j k : Fin 64) :
    k0_pay8 (F := Ideal) (k0_pay3 x0) (k0_pay4 x1) (ix3 i j k) = Ideal.exp (negFour * sumSq d b i j k) * cutoff w b i j k := by
  rw [pay8_apply]
  simp only [pay3_apply x0 w b hw, pay4_apply x1 d b hd]
  rfl

include hw hd hc in
/-- Channel 0: `ζ = 2`, `λ = 1`. -/
theorem column0 (i : Fin 64) :
    k0_pay12 (F := Ideal) (k0_pay3 x0) (k0_pay4 x1) (k0_pay5 x2) (k0_pay6 x1) (ix3 (0 : Fin 1) i (0 : Fin 1)) = gramValue w d c b i 0 := by
  unfold k0_pay12
  simp only [mulf_apply, broadcast_apply, scalar_ofBits, shapeCast_ab_1ab_apply, shapeCast_a_a1_apply]
  refine (congrArg (· * _) (doubleSum_apply _ _ _ _ _ _ _ i)).trans ?_
  simp only [mulf_apply, pay9_apply, cosTheta_apply x1 x2 d c b hd hc, base_apply x0 x1 w d b hw hd]
  rfl

include hw hd hc in
/-- Channel 1: `ζ = 4`, `λ = 1`. -/
theorem column1 (i : Fin 64) :
    k0_pay15 (F := Ideal) (k0_pay13 (k0_pay3 x0) (k0_pay4 x1) (k0_pay5 x2) (k0_pay6 x1)) k0_pay14 (ix3 (0 : Fin 1) i (0 : Fin 1)) = gramValue w d c b i 1 := by
  unfold k0_pay15 k0_pay13 k0_pay14
  simp only [mulf_apply, broadcast_apply, scalar_ofBits, shapeCast_ab_1ab_apply, shapeCast_a_a1_apply]
  refine (congrArg (· * _) (doubleSum_apply _ _ _ _ _ _ _ i)).trans ?_
  simp only [mulf_apply, pay10_apply, pay9_apply, cosTheta_apply x1 x2 d c b hd hc, base_apply x0 x1 w d b hw hd]
  rfl

include hw hd hc in
/-- Channel 2: `ζ = 8`, `λ = 1`. -/
theorem column2 (i : Fin 64) :
    k0_pay16 (F := Ideal) (k0_pay8 (k0_pay3 x0) (k0_pay4 x1)) (k0_pay11 (k0_pay5 x2) (k0_pay6 x1)) (ix3 (0 : Fin 1) i (0 : Fin 1)) = gramValue w d c b i 2 := by
  unfold k0_pay16
  simp only [mulf_apply, broadcast_apply, scalar_ofBits, shapeCast_ab_1ab_apply, shapeCast_a_a1_apply]
  refine (congrArg (· * _) (doubleSum_apply _ _ _ _ _ _ _ i)).trans ?_
  simp only [mulf_apply, pay11_apply, pay10_apply, pay9_apply, cosTheta_apply x1 x2 d c b hd hc, base_apply x0 x1 w d b hw hd]
  rfl

include hw hd hc in
/-- Channel 3: `ζ = 2`, `λ = -1`. -/
theorem column3 (i : Fin 64) :
    k0_pay20 (F := Ideal) (k0_pay7 (k0_pay5 x2) (k0_pay6 x1)) (k0_pay8 (k0_pay3 x0) (k0_pay4 x1)) (ix3 (0 : Fin 1) i (0 : Fin 1)) = gramValue w d c b i 3 := by
  unfold k0_pay20
  simp only [mulf_apply, broadcast_apply, scalar_ofBits, shapeCast_ab_1ab_apply, shapeCast_a_a1_apply]
  refine (congrArg (· * _) (doubleSum_apply _ _ _ _ _ _ _ i)).trans ?_
  simp only [mulf_apply, pay17_apply, cosTheta_apply x1 x2 d c b hd hc, base_apply x0 x1 w d b hw hd]
  rfl

include hw hd hc in
/-- Channel 4: `ζ = 4`, `λ = -1`. -/
theorem column4 (i : Fin 64) :
    k0_pay1 (F := Ideal) (k0_pay21 (k0_pay7 (k0_pay5 x2) (k0_pay6 x1)) (k0_pay8 (k0_pay3 x0) (k0_pay4 x1))) (ix3 (0 : Fin 1) i (0 : Fin 1)) = gramValue w d c b i 4 := by
  unfold k0_pay1 k0_pay21
  simp only [mulf_apply, broadcast_apply, scalar_ofBits, shapeCast_ab_1ab_apply, shapeCast_a_a1_apply]
  refine (congrArg (· * _) (doubleSum_apply _ _ _ _ _ _ _ i)).trans ?_
  simp only [mulf_apply, pay18_apply, pay17_apply, cosTheta_apply x1 x2 d c b hd hc, base_apply x0 x1 w d b hw hd]
  rfl

include hw hd hc in
/-- Channel 5: `ζ = 8`, `λ = -1`. -/
theorem column5 (i : Fin 64) :
    k0_pay2 (F := Ideal) (k0_pay8 (k0_pay3 x0) (k0_pay4 x1)) (k0_pay19 (k0_pay7 (k0_pay5 x2) (k0_pay6 x1))) (ix3 (0 : Fin 1) i (0 : Fin 1)) = gramValue w d c b i 5 := by
  unfold k0_pay2
  simp only [mulf_apply, broadcast_apply, scalar_ofBits, shapeCast_ab_1ab_apply, shapeCast_a_a1_apply]
  refine (congrArg (· * _) (doubleSum_apply _ _ _ _ _ _ _ i)).trans ?_
  simp only [mulf_apply, pay19_apply, pay18_apply, pay17_apply, cosTheta_apply x1 x2 d c b hd hc, base_apply x0 x1 w d b hw hd]
  rfl

include hw hd hc in
/-- What the body leaves in the output block, at `(0, i, l)`: the six stored columns tile the block, and column `l`
    holds channel `l` of every centre atom `i`. -/
theorem out_apply (i : Fin 64) (l : Fin 6) : out0_3 (F := Ideal) x0 x1 x2 (ix3 (0 : Fin 1) i l) = gramValue w d c b i l := by
  have hz : (![0, 0, 0] : Fin 3 → ℕ) = fun _ => 0 := by funext a; fin_cases a <;> rfl
  unfold out0_3
  simp only [View.ld_unit_zero (S := S1x64x64) hz, View.ld_unit_zero (S := S1x64x3) hz]
  refine (View.canon_apply_of_pieces (fun y : S1x64x6.Idx => gramValue w d c b (y 1) (y 2)) _ ?_ (ix3 (0 : Fin 1) i l) (cover0_3 _ _ _ _ _ _ _)).trans rfl
  intro p hp x
  simp only [List.mem_cons, List.mem_singleton, List.not_mem_nil, or_false] at hp
  rcases hp with rfl | rfl | rfl | rfl | rfl | rfl
  · obtain ⟨u, i', z, rfl⟩ : ∃ (u : Fin 1) (i' : Fin 64) (z : Fin 1), x = ix3 u i' z := ⟨x 0, x 1, x 2, eq_ix3 x⟩
    obtain rfl : u = 0 := Subsingleton.elim _ _
    obtain rfl : z = 0 := Subsingleton.elim _ _
    have e1 : (r0_7.emb (ix3 (0 : Fin 1) i' (0 : Fin 1))) 1 = i' := Fin.ext (by show 0 + 1 * i'.val = i'.val; omega)
    have e2 : (r0_7.emb (ix3 (0 : Fin 1) i' (0 : Fin 1))) 2 = (5 : Fin 6) := Fin.ext (by show 5 + 1 * 0 = 5; rfl)
    exact (column5 x0 x1 x2 w d c b hw hd hc i').trans (congrArg₂ (gramValue w d c b) e1 e2).symm
  · obtain ⟨u, i', z, rfl⟩ : ∃ (u : Fin 1) (i' : Fin 64) (z : Fin 1), x = ix3 u i' z := ⟨x 0, x 1, x 2, eq_ix3 x⟩
    obtain rfl : u = 0 := Subsingleton.elim _ _
    obtain rfl : z = 0 := Subsingleton.elim _ _
    have e1 : (r0_6.emb (ix3 (0 : Fin 1) i' (0 : Fin 1))) 1 = i' := Fin.ext (by show 0 + 1 * i'.val = i'.val; omega)
    have e2 : (r0_6.emb (ix3 (0 : Fin 1) i' (0 : Fin 1))) 2 = (4 : Fin 6) := Fin.ext (by show 4 + 1 * 0 = 4; rfl)
    exact (column4 x0 x1 x2 w d c b hw hd hc i').trans (congrArg₂ (gramValue w d c b) e1 e2).symm
  · obtain ⟨u, i', z, rfl⟩ : ∃ (u : Fin 1) (i' : Fin 64) (z : Fin 1), x = ix3 u i' z := ⟨x 0, x 1, x 2, eq_ix3 x⟩
    obtain rfl : u = 0 := Subsingleton.elim _ _
    obtain rfl : z = 0 := Subsingleton.elim _ _
    have e1 : (r0_5.emb (ix3 (0 : Fin 1) i' (0 : Fin 1))) 1 = i' := Fin.ext (by show 0 + 1 * i'.val = i'.val; omega)
    have e2 : (r0_5.emb (ix3 (0 : Fin 1) i' (0 : Fin 1))) 2 = (3 : Fin 6) := Fin.ext (by show 3 + 1 * 0 = 3; rfl)
    exact (column3 x0 x1 x2 w d c b hw hd hc i').trans (congrArg₂ (gramValue w d c b) e1 e2).symm
  · obtain ⟨u, i', z, rfl⟩ : ∃ (u : Fin 1) (i' : Fin 64) (z : Fin 1), x = ix3 u i' z := ⟨x 0, x 1, x 2, eq_ix3 x⟩
    obtain rfl : u = 0 := Subsingleton.elim _ _
    obtain rfl : z = 0 := Subsingleton.elim _ _
    have e1 : (r0_4.emb (ix3 (0 : Fin 1) i' (0 : Fin 1))) 1 = i' := Fin.ext (by show 0 + 1 * i'.val = i'.val; omega)
    have e2 : (r0_4.emb (ix3 (0 : Fin 1) i' (0 : Fin 1))) 2 = (2 : Fin 6) := Fin.ext (by show 2 + 1 * 0 = 2; rfl)
    exact (column2 x0 x1 x2 w d c b hw hd hc i').trans (congrArg₂ (gramValue w d c b) e1 e2).symm
  · obtain ⟨u, i', z, rfl⟩ : ∃ (u : Fin 1) (i' : Fin 64) (z : Fin 1), x = ix3 u i' z := ⟨x 0, x 1, x 2, eq_ix3 x⟩
    obtain rfl : u = 0 := Subsingleton.elim _ _
    obtain rfl : z = 0 := Subsingleton.elim _ _
    have e1 : (r0_3.emb (ix3 (0 : Fin 1) i' (0 : Fin 1))) 1 = i' := Fin.ext (by show 0 + 1 * i'.val = i'.val; omega)
    have e2 : (r0_3.emb (ix3 (0 : Fin 1) i' (0 : Fin 1))) 2 = (1 : Fin 6) := Fin.ext (by show 1 + 1 * 0 = 1; rfl)
    exact (column1 x0 x1 x2 w d c b hw hd hc i').trans (congrArg₂ (gramValue w d c b) e1 e2).symm
  · obtain ⟨u, i', z, rfl⟩ : ∃ (u : Fin 1) (i' : Fin 64) (z : Fin 1), x = ix3 u i' z := ⟨x 0, x 1, x 2, eq_ix3 x⟩
    obtain rfl : u = 0 := Subsingleton.elim _ _
    obtain rfl : z = 0 := Subsingleton.elim _ _
    have e1 : (r0_2.emb (ix3 (0 : Fin 1) i' (0 : Fin 1))) 1 = i' := Fin.ext (by show 0 + 1 * i'.val = i'.val; omega)
    have e2 : (r0_2.emb (ix3 (0 : Fin 1) i' (0 : Fin 1))) 2 = (0 : Fin 6) := Fin.ext (by show 0 + 1 * 0 = 0; rfl)
    exact (column0 x0 x1 x2 w d c b hw hd hc i').trans (congrArg₂ (gramValue w d c b) e1 e2).symm
end

end Cert.KernelIdeal.Body

end
-- ==== Proof.WholeArray.lean ====
/-
  From the blocks to the whole output array of the idealized kernel.

  The grid has sixteen points; point `t` holds batch element `t`: every window's block there is slab `t` of its
  array (the printed index maps, decided over the grid). So what point `t` writes back — the body's block, which at
  `(0, i, l)` is the angular symmetry function of that batch element — is block `t` of ONE function of the three
  argument arrays, `wholeValue`, whose entry `(b, i, l)` is the Gram-matrix spelling at batch element `b`. The
  sixteen blocks tile the `[16, 64, 6]` output, so after the run the output array is `wholeValue` of the arguments.
-/
import proofs.«175770_j68315749810414_2_alg».proof.Proof.Gen.KernelIdeal.Value
import proofs.«175770_j68315749810414_2_alg».proof.Proof.BodyValues
import Idealize.ShloMosaic.Lib.Pipeline.Value

noncomputable section

open Idealize.ShloMosaic Idealize.ShloMosaic.TcCoe Idealize.SL.Sem
open Idealize.ShloMosaic.Pipeline (Dat)

namespace Cert.KernelIdeal.Whole

open Cert.KernelIdeal Cert.KernelIdeal.Gen Cert.KernelIdeal.Value Cert.KernelIdeal.Body Idealize.ShloMosaic.ValueIdx Cert.Angular

variable (m : (ℓ : Loc nD τ sig) → Buf (Elt Ideal) ℓ) (ρ : Dev nD → PrngReg)

/-- The output array as one function of the three argument arrays: at `(b, i, l)`, the Gram-matrix spelling of
    the angular symmetry function of batch element `b`, centre atom `i`, channel `l`. -/
def wholeValue (w d : FVec Ideal S16x64x64 .f32) (c : FVec Ideal S16x64x3 .f32) : FVec Ideal S16x64x6 .f32 :=
  fun y => gramValue w d c (y 0) (y 1) (y 2)

/-- The printed index maps, decided over the sixteen grid points: every window's block at point `t` is slab `t`
    of its array (block index `(t, 0, 0)`), and `t` is below 16. -/
theorem idx_facts : ∀ t : Fin cfg0.N, t.val < 16
    ∧ win0_0.index t (0 : Fin 3) = t.val ∧ win0_0.index t (1 : Fin 3) = 0 ∧ win0_0.index t (2 : Fin 3) = 0
    ∧ win0_1.index t (0 : Fin 3) = t.val ∧ win0_1.index t (1 : Fin 3) = 0 ∧ win0_1.index t (2 : Fin 3) = 0
    ∧ win0_2.index t (0 : Fin 3) = t.val ∧ win0_2.index t (1 : Fin 3) = 0 ∧ win0_2.index t (2 : Fin 3) = 0
    ∧ win0_3.index t (0 : Fin 3) = t.val ∧ win0_3.index t (1 : Fin 3) = 0 ∧ win0_3.index t (2 : Fin 3) = 0 :=
  (by decide +kernel : ∀ t : Fin grid0.N, _)

/-- Every slab is some point's. -/
theorem idx_onto : ∀ q : Fin 16, ∃ t : Fin cfg0.N, win0_3.index t = ![q.val, 0, 0] :=
  (by decide +kernel : ∀ q : Fin 16, ∃ t : Fin grid0.N, win0_3.index t = ![q.val, 0, 0])

/-- The batch element a grid point works on. -/
def slab (t : Fin cfg0.N) : Fin 16 := ⟨t.val, (idx_facts t).1⟩

/-- Point `t`'s block of the cutoff matrix is slab `t` of the array. -/
theorem iblk0_apply (c : Dev nD) (t : Fin cfg0.N) (p q : Fin 64) :
    iblk m c 0 t (ix3 (0 : Fin 1) p q) = V m c main_arg0 (ix3 (slab t) p q) := by
  obtain ⟨_, e0, e1, e2, _⟩ := idx_facts t
  show V m c main_arg0 (((cfg0.win 0).blk t).view.emb (ix3 (0 : Fin 1) p q)) = V m c main_arg0 (ix3 (slab t) p q)
  refine congrArg (V m c main_arg0) (funext fun a => Fin.ext ?_)
  match a with
  | ⟨0, _⟩ => show win0_0.index t (0 : Fin 3) * 1 + 1 * 0 = t.val; omega
  | ⟨1, _⟩ => show win0_0.index t (1 : Fin 3) * 64 + 1 * p.val = p.val; omega
  | ⟨2, _⟩ => show win0_0.index t (2 : Fin 3) * 64 + 1 * q.val = q.val; omega

/-- Point `t`'s block of the distance matrix is slab `t` of the array. -/
theorem iblk1_apply (c : Dev nD) (t : Fin cfg0.N) (p q : Fin 64) :
    iblk m c 1 t (ix3 (0 : Fin 1) p q) = V m c main_arg1 (ix3 (slab t) p q) := by
  obtain ⟨_, _, _, _, e0, e1, e2, _⟩ := idx_facts t
  show V m c main_arg1 (((cfg0.win 1).blk t).view.emb (ix3 (0 : Fin 1) p q)) = V m c main_arg1 (ix3 (slab t) p q)
  refine congrArg (V m c main_arg1) (funext fun a => Fin.ext ?_)
  match a with
  | ⟨0, _⟩ => show win0_1.index t (0 : Fin 3) * 1 + 1 * 0 = t.val; omega
  | ⟨1, _⟩ => show win0_1.index t (1 : Fin 3) * 64 + 1 * p.val = p.val; omega
  | ⟨2, _⟩ => show win0_1.index t (2 : Fin 3) * 64 + 1 * q.val = q.val; omega

/-- Point `t`'s block of the coordinates is slab `t` of the array. -/
theorem iblk2_apply (c : Dev nD) (t : Fin cfg0.N) (p : Fin 64) (e : Fin 3) :
    iblk m c 2 t (ix3 (0 : Fin 1) p e) = V m c main_arg2 (ix3 (slab t) p e) := by
  obtain ⟨_, _, _, _, _, _, _, e0, e1, e2, _⟩ := idx_facts t
  show V m c main_arg2 (((cfg0.win 2).blk t).view.emb (ix3 (0 : Fin 1) p e)) = V m c main_arg2 (ix3 (slab t) p e)
  refine congrArg (V m c main_arg2) (funext fun a => Fin.ext ?_)
  match a with
  | ⟨0, _⟩ => show win0_2.index t (0 : Fin 3) * 1 + 1 * 0 = t.val; omega
  | ⟨1, _⟩ => show win0_2.index t (1 : Fin 3) * 64 + 1 * p.val = p.val; omega
  | ⟨2, _⟩ => show win0_2.index t (2 : Fin 3) * 3 + 1 * e.val = e.val; omega

/-- What point `t` writes back is block `t` of `wholeValue` of the argument arrays: the body's block at
    `(0, i, l)` is the symmetry function of batch element `t`, and the block sits at slab `t` of the output. -/
theorem flushed_eq (c : Dev nD) (t : Fin cfg0.N) :
    (dats m 0 c).flushed 3 t
      = ((cfg0.win 3).blk t).view.read (Elt Ideal) (wholeValue (V m c main_arg0) (V m c main_arg1) (V m c main_arg2)) := by
  rw [flushed3]
  obtain ⟨_, _, _, _, _, _, _, _, _, _, e0, e1, e2⟩ := idx_facts t
  funext y
  obtain ⟨u, i, l, rfl⟩ : ∃ (u : Fin 1) (i : Fin 64) (l : Fin 6), y = ix3 u i l := ⟨y 0, y 1, y 2, eq_ix3 y⟩
  obtain rfl : u = 0 := Subsingleton.elim _ _
  show out0_3 (iblk m c 0 t) (iblk m c 1 t) (iblk m c 2 t) (ix3 (0 : Fin 1) i l)
    = wholeValue (V m c main_arg0) (V m c main_arg1) (V m c main_arg2) (((cfg0.win 3).blk t).view.emb (ix3 (0 : Fin 1) i l))
  refine (out_apply (iblk m c 0 t) (iblk m c 1 t) (iblk m c 2 t) (V m c main_arg0) (V m c main_arg1) (V m c main_arg2) (slab t)
    (iblk0_apply m c t) (iblk1_apply m c t) (iblk2_apply m c t) i l).trans ?_
  have h0 : (((cfg0.win 3).blk t).view.emb (ix3 (0 : Fin 1) i l)) 0 = slab t := Fin.ext (by show win0_3.index t (0 : Fin 3) * 1 + 1 * 0 = t.val; omega)
  have h1 : (((cfg0.win 3).blk t).view.emb (ix3 (0 : Fin 1) i l)) 1 = i := Fin.ext (by show win0_3.index t (1 : Fin 3) * 64 + 1 * i.val = i.val; omega)
  have h2 : (((cfg0.win 3).blk t).view.emb (ix3 (0 : Fin 1) i l)) 2 = l := Fin.ext (by show win0_3.index t (2 : Fin 3) * 6 + 1 * l.val = l.val; omega)
  show gramValue _ _ _ (slab t) i l = gramValue _ _ _ ((((cfg0.win 3).blk t).view.emb (ix3 (0 : Fin 1) i l)) 0) ((((cfg0.win 3).blk t).view.emb (ix3 (0 : Fin 1) i l)) 1) ((((cfg0.win 3).blk t).view.emb (ix3 (0 : Fin 1) i l)) 2)
  rw [h0, h1, h2]

/-- An index of the output array is in point `t`'s block iff each coordinate is in the block's range on its axis. -/
theorem mem_blk (t : Fin cfg0.N) (i : S16x64x6.Idx) :
    i ∈ ((cfg0.win 3).blk t).view.set ↔ ∀ a : Fin 3, win0_3.index t a * S1x64x6.size a ≤ (i a).val ∧ (i a).val < win0_3.index t a * S1x64x6.size a + S1x64x6.size a := by
  show i ∈ ((View.whole main_v0).slice (win0_3.rect t)).set ↔ _
  rw [View.set_slice_whole, Rect.mem_set_unit]
  exact Iff.rfl

/-- The sixteen blocks tile the output array: the index `(b, i, l)` lies in the block of the point whose slab is `b`. -/
theorem cover (i : S16x64x6.Idx) : ∃ t : Fin cfg0.N, (cfg0.win 3).flush t = true ∧ i ∈ ((cfg0.win 3).blk t).view.set := by
  have hi0 : (i 0).val < 16 := (i 0).isLt
  have hi1 : (i 1).val < 64 := (i 1).isLt
  have hi2 : (i 2).val < 6 := (i 2).isLt
  obtain ⟨t, ht⟩ := idx_onto ⟨(i 0).val, hi0⟩
  have q0 : win0_3.index t (0 : Fin 3) = (i 0).val := congrFun ht 0
  have q1 : win0_3.index t (1 : Fin 3) = 0 := congrFun ht 1
  have q2 : win0_3.index t (2 : Fin 3) = 0 := congrFun ht 2
  refine ⟨t, flush0_3 t, ?_⟩
  rw [mem_blk]
  intro a
  match a with
  | ⟨0, _⟩ => show win0_3.index t (0 : Fin 3) * 1 ≤ (i 0).val ∧ (i 0).val < win0_3.index t (0 : Fin 3) * 1 + 1; omega
  | ⟨1, _⟩ => show win0_3.index t (1 : Fin 3) * 64 ≤ (i 1).val ∧ (i 1).val < win0_3.index t (1 : Fin 3) * 64 + 64; omega
  | ⟨2, _⟩ => show win0_3.index t (2 : Fin 3) * 6 ≤ (i 2).val ∧ (i 2).val < win0_3.index t (2 : Fin 3) * 6 + 6; omega

/-- The output array after the run is `wholeValue` of the argument arrays. -/
theorem final (c : Dev nD) :
    (dats m 0 c).arrAt 3 cfg0.N = wholeValue (m ((c : Thread nD τ).loc main_arg0)) (m ((c : Thread nD τ).loc main_arg1)) (m ((c : Thread nD τ).loc main_arg2)) :=
  (dats m 0 c).arrAt_eq_of_cover 3 (wholeValue (V m c main_arg0) (V m c main_arg1) (V m c main_arg2)) (fun t _ => flushed_eq m c t) cover

/-- Every weakly fair execution of the idealized kernel ends with its result array at `wholeValue` of the argument
    arrays, and the arguments unchanged. -/
theorem run : θ_run defs (onTc (τ := τ) (main (F := Ideal))) ⟨m, fun _ => 0, ρ⟩ fun r => ∀ c : Dev nD,
      r.2.mem ((c : Thread nD τ).loc main_v0) = wholeValue (m ((c : Thread nD τ).loc main_arg0)) (m ((c : Thread nD τ).loc main_arg1)) (m ((c : Thread nD τ).loc main_arg2))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  (θ_run defs _ _).mono (fun r h c => ⟨(h c).1.trans (final m c), (h c).2⟩) (run_blocks m ρ)

end Cert.KernelIdeal.Whole

end
-- ==== Proof.RefRun.lean ====
/-
  The reference program run to its end.

  The program is a straight line of 69 host operations on three argument arrays: the cutoff matrix `w` and the
  distance matrix `d`, both `[16, 64, 64]`, and the coordinates `c`, `[16, 64, 3]`. This module lists the
  operations, writes the value of the result buffer as one function `result w d c` composed of small named stages,
  and proves that every weakly fair execution terminates with the result buffer at that value and the three
  arguments unchanged. Everything here holds for any float instance.
-/
import proofs.«175770_j68315749810414_2_alg».proof.Proof.Gen.ReferenceIdeal
import Idealize.ShloMosaic.Lib.StableHlo.Run

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

/-- The reference program's 69 host operations, in the order it runs them. -/
abbrev ops : List (HloOp τ sig (Elt F)) :=
  [
    nullary main_cst (fun i => FloatOps.ofBits .f32 (lit0 (S6.rowMajor i))),
    nullary main_cst_0 (constant S6 .f32 0x40800000#32),
    nullary main_cst_1 (fun i => FloatOps.ofBits .f32 (lit1 (S6.rowMajor i))),
    unary main_arg2 main_v0 (broadcastInDim S16x64x1x3 ![0, 1, 3] bcast_S16x64x3_S16x64x1x3_0_1_3 : (⟨S16x64x3, .f32⟩ : BufTy).Contents (Elt F) → (⟨S16x64x1x3, .f32⟩ : BufTy).Contents (Elt F)),
    unary main_arg2 main_v1 (broadcastInDim S16x1x64x3 ![0, 2, 3] bcast_S16x64x3_S16x1x64x3_0_2_3 : (⟨S16x64x3, .f32⟩ : BufTy).Contents (Elt F) → (⟨S16x1x64x3, .f32⟩ : BufTy).Contents (Elt F)),
    unary main_v0 main_v2 (broadcastInDim S16x64x64x3 ![0, 1, 2, 3] bcast_S16x64x1x3_S16x64x64x3_0_1_2_3 : (⟨S16x64x1x3, .f32⟩ : BufTy).Contents (Elt F) → (⟨S16x64x64x3, .f32⟩ : BufTy).Contents (Elt F)),
    unary main_v1 main_v3 (broadcastInDim S16x64x64x3 ![0, 1, 2, 3] bcast_S16x1x64x3_S16x64x64x3_0_1_2_3 : (⟨S16x1x64x3, .f32⟩ : BufTy).Contents (Elt F) → (⟨S16x64x64x3, .f32⟩ : BufTy).Contents (Elt F)),
    binary main_v2 main_v3 main_v4 (subf : (⟨S16x64x64x3, .f32⟩ : BufTy).Contents (Elt F) → (⟨S16x64x64x3, .f32⟩ : BufTy).Contents (Elt F) → (⟨S16x64x64x3, .f32⟩ : BufTy).Contents (Elt F)),
    unary main_arg1 main_v5 (broadcastInDim S16x64x64x1 ![0, 1, 2] bcast_S16x64x64_S16x64x64x1_0_1_2 : (⟨S16x64x64, .f32⟩ : BufTy).Contents (Elt F) → (⟨S16x64x64x1, .f32⟩ : BufTy).Contents (Elt F)),
    unary main_arg1 main_v6 (broadcastInDim S16x64x1x64 ![0, 1, 3] bcast_S16x64x64_S16x64x1x64_0_1_3 : (⟨S16x64x64, .f32⟩ : BufTy).Contents (Elt F) → (⟨S16x64x1x64, .f32⟩ : BufTy).Contents (Elt F)),
    unary main_arg1 main_v7 (broadcastInDim S16x1x64x64 ![0, 2, 3] bcast_S16x64x64_S16x1x64x64_0_2_3 : (⟨S16x64x64, .f32⟩ : BufTy).Contents (Elt F) → (⟨S16x1x64x64, .f32⟩ : BufTy).Contents (Elt F)),
    binary main_v4 main_v4 main_v8 ((fun l r => Host.dotGeneral dot_S16x64x64x3_S16x64x64x3_S16x64x64x64_3_3_2_2_01_01 none l r) : (⟨S16x64x64x3, .f32⟩ : BufTy).Contents (Elt F) → (⟨S16x64x64x3, .f32⟩ : BufTy).Contents (Elt F) → (⟨S16x64x64x64, .f32⟩ : BufTy).Contents (Elt F)),
    unary main_v5 main_v9 (broadcastInDim S16x64x64x64 ![0, 1, 2, 3] bcast_S16x64x64x1_S16x64x64x64_0_1_2_3 : (⟨S16x64x64x1, .f32⟩ : BufTy).Contents (Elt F) → (⟨S16x64x64x64, .f32⟩ : BufTy).Contents (Elt F)),
    unary main_v6 main_v10 (broadcastInDim S16x64x64x64 ![0, 1, 2, 3] bcast_S16x64x1x64_S16x64x64x64_0_1_2_3 : (⟨S16x64x1x64, .f32⟩ : BufTy).Contents (Elt F) → (⟨S16x64x64x64, .f32⟩ : BufTy).Contents (Elt F)),
    binary main_v9 main_v10 main_v11 (mulf : (⟨S16x64x64x64, .f32⟩ : BufTy).Contents (Elt F) → (⟨S16x64x64x64, .f32⟩ : BufTy).Contents (Elt F) → (⟨S16x64x64x64, .f32⟩ : BufTy).Contents (Elt F)),
    nullary main_cst_2 (constant S_ .f32 0x3727C5AC#32),
    unary main_cst_2 main_v12 (broadcastInDim S16x64x64x64 ![] bcast_S_S16x64x64x64 : (⟨S_, .f32⟩ : BufTy).Contents (Elt F) → (⟨S16x64x64x64, .f32⟩ : BufTy).Contents (Elt F)),
    binary main_v11 main_v12 main_v13 (addf : (⟨S16x64x64x64, .f32⟩ : BufTy).Contents (Elt F) → (⟨S16x64x64x64, .f32⟩ : BufTy).Contents (Elt F) → (⟨S16x64x64x64, .f32⟩ : BufTy).Contents (Elt F)),
    binary main_v8 main_v13 main_v14 (Host.divf : (⟨S16x64x64x64, .f32⟩ : BufTy).Contents (Elt F) → (⟨S16x64x64x64, .f32⟩ : BufTy).Contents (Elt F) → (⟨S16x64x64x64, .f32⟩ : BufTy).Contents (Elt F)),
    binary main_v5 main_v5 main_v15 (mulf : (⟨S16x64x64x1, .f32⟩ : BufTy).Contents (Elt F) → (⟨S16x64x64x1, .f32⟩ : BufTy).Contents (Elt F) → (⟨S16x64x64x1, .f32⟩ : BufTy).Contents (Elt F)),
    binary main_v6 main_v6 main_v16 (mulf : (⟨S16x64x1x64, .f32⟩ : BufTy).Contents (Elt F) → (⟨S16x64x1x64, .f32⟩ : BufTy).Contents (Elt F) → (⟨S16x64x1x64, .f32⟩ : BufTy).Contents (Elt F)),
    unary main_v15 main_v17 (broadcastInDim S16x64x64x64 ![0, 1, 2, 3] bcast_S16x64x64x1_S16x64x64x64_0_1_2_3 : (⟨S16x64x64x1, .f32⟩ : BufTy).Contents (Elt F) → (⟨S16x64x64x64, .f32⟩ : BufTy).Contents (Elt F)),
    unary main_v16 main_v18 (broadcastInDim S16x64x64x64 ![0, 1, 2, 3] bcast_S16x64x1x64_S16x64x64x64_0_1_2_3 : (⟨S16x64x1x64, .f32⟩ : BufTy).Contents (Elt F) → (⟨S16x64x64x64, .f32⟩ : BufTy).Contents (Elt F)),
    binary main_v17 main_v18 main_v19 (addf : (⟨S16x64x64x64, .f32⟩ : BufTy).Contents (Elt F) → (⟨S16x64x64x64, .f32⟩ : BufTy).Contents (Elt F) → (⟨S16x64x64x64, .f32⟩ : BufTy).Contents (Elt F)),
    binary main_v7 main_v7 main_v20 (mulf : (⟨S16x1x64x64, .f32⟩ : BufTy).Contents (Elt F) → (⟨S16x1x64x64, .f32⟩ : BufTy).Contents (Elt F) → (⟨S16x1x64x64, .f32⟩ : BufTy).Contents (Elt F)),
    unary main_v20 main_v21 (broadcastInDim S16x64x64x64 ![0, 1, 2, 3] bcast_S16x1x64x64_S16x64x64x64_0_1_2_3 : (⟨S16x1x64x64, .f32⟩ : BufTy).Contents (Elt F) → (⟨S16x64x64x64, .f32⟩ : BufTy).Contents (Elt F)),
    binary main_v19 main_v21 main_v22 (addf : (⟨S16x64x64x64, .f32⟩ : BufTy).Contents (Elt F) → (⟨S16x64x64x64, .f32⟩ : BufTy).Contents (Elt F) → (⟨S16x64x64x64, .f32⟩ : BufTy).Contents (Elt F)),
    unary main_arg0 main_v23 (broadcastInDim S16x64x64x1 ![0, 1, 2] bcast_S16x64x64_S16x64x64x1_0_1_2 : (⟨S16x64x64, .f32⟩ : BufTy).Contents (Elt F) → (⟨S16x64x64x1, .f32⟩ : BufTy).Contents (Elt F)),
    unary main_arg0 main_v24 (broadcastInDim S16x64x1x64 ![0, 1, 3] bcast_S16x64x64_S16x64x1x64_0_1_3 : (⟨S16x64x64, .f32⟩ : BufTy).Contents (Elt F) → (⟨S16x64x1x64, .f32⟩ : BufTy).Contents (Elt F)),
    unary main_v23 main_v25 (broadcastInDim S16x64x64x64 ![0, 1, 2, 3] bcast_S16x64x64x1_S16x64x64x64_0_1_2_3 : (⟨S16x64x64x1, .f32⟩ : BufTy).Contents (Elt F) → (⟨S16x64x64x64, .f32⟩ : BufTy).Contents (Elt F)),
    unary main_v24 main_v26 (broadcastInDim S16x64x64x64 ![0, 1, 2, 3] bcast_S16x64x1x64_S16x64x64x64_0_1_2_3 : (⟨S16x64x1x64, .f32⟩ : BufTy).Contents (Elt F) → (⟨S16x64x64x64, .f32⟩ : BufTy).Contents (Elt F)),
    binary main_v25 main_v26 main_v27 (mulf : (⟨S16x64x64x64, .f32⟩ : BufTy).Contents (Elt F) → (⟨S16x64x64x64, .f32⟩ : BufTy).Contents (Elt F) → (⟨S16x64x64x64, .f32⟩ : BufTy).Contents (Elt F)),
    unary main_arg0 main_v28 (broadcastInDim S16x1x64x64 ![0, 2, 3] bcast_S16x64x64_S16x1x64x64_0_2_3 : (⟨S16x64x64, .f32⟩ : BufTy).Contents (Elt F) → (⟨S16x1x64x64, .f32⟩ : BufTy).Contents (Elt F)),
    unary main_v28 main_v29 (broadcastInDim S16x64x64x64 ![0, 1, 2, 3] bcast_S16x1x64x64_S16x64x64x64_0_1_2_3 : (⟨S16x1x64x64, .f32⟩ : BufTy).Contents (Elt F) → (⟨S16x64x64x64, .f32⟩ : BufTy).Contents (Elt F)),
    binary main_v27 main_v29 main_v30 (mulf : (⟨S16x64x64x64, .f32⟩ : BufTy).Contents (Elt F) → (⟨S16x64x64x64, .f32⟩ : BufTy).Contents (Elt F) → (⟨S16x64x64x64, .f32⟩ : BufTy).Contents (Elt F)),
    reshape main_cst main_v31 rfl shapeCasts_S6_S1x1x1x1x6,
    reshape main_cst_0 main_v32 rfl shapeCasts_S6_S1x1x1x1x6,
    reshape main_cst_1 main_v33 rfl shapeCasts_S6_S1x1x1x1x6,
    unary main_v14 main_v34 (Host.cos : (⟨S16x64x64x64, .f32⟩ : BufTy).Contents (Elt F) → (⟨S16x64x64x64, .f32⟩ : BufTy).Contents (Elt F)),
    unary main_v34 main_v35 (broadcastInDim S16x64x64x64x1 ![0, 1, 2, 3] bcast_S16x64x64x64_S16x64x64x64x1_0_1_2_3 : (⟨S16x64x64x64, .f32⟩ : BufTy).Contents (Elt F) → (⟨S16x64x64x64x1, .f32⟩ : BufTy).Contents (Elt F)),
    unary main_v31 main_v36 (broadcastInDim S16x64x64x64x6 ![0, 1, 2, 3, 4] bcast_S1x1x1x1x6_S16x64x64x64x6_0_1_2_3_4 : (⟨S1x1x1x1x6, .f32⟩ : BufTy).Contents (Elt F) → (⟨S16x64x64x64x6, .f32⟩ : BufTy).Contents (Elt F)),
    unary main_v35 main_v37 (broadcastInDim S16x64x64x64x6 ![0, 1, 2, 3, 4] bcast_S16x64x64x64x1_S16x64x64x64x6_0_1_2_3_4 : (⟨S16x64x64x64x1, .f32⟩ : BufTy).Contents (Elt F) → (⟨S16x64x64x64x6, .f32⟩ : BufTy).Contents (Elt F)),
    binary main_v36 main_v37 main_v38 (mulf : (⟨S16x64x64x64x6, .f32⟩ : BufTy).Contents (Elt F) → (⟨S16x64x64x64x6, .f32⟩ : BufTy).Contents (Elt F) → (⟨S16x64x64x64x6, .f32⟩ : BufTy).Contents (Elt F)),
    nullary main_cst_3 (constant S_ .f32 0x3F800000#32),
    unary main_cst_3 main_v39 (broadcastInDim S16x64x64x64x6 ![] bcast_S_S16x64x64x64x6 : (⟨S_, .f32⟩ : BufTy).Contents (Elt F) → (⟨S16x64x64x64x6, .f32⟩ : BufTy).Contents (Elt F)),
    binary main_v39 main_v38 main_v40 (addf : (⟨S16x64x64x64x6, .f32⟩ : BufTy).Contents (Elt F) → (⟨S16x64x64x64x6, .f32⟩ : BufTy).Contents (Elt F) → (⟨S16x64x64x64x6, .f32⟩ : BufTy).Contents (Elt F)),
    unary main_v33 main_v41 (broadcastInDim S16x64x64x64x6 ![0, 1, 2, 3, 4] bcast_S1x1x1x1x6_S16x64x64x64x6_0_1_2_3_4 : (⟨S1x1x1x1x6, .f32⟩ : BufTy).Contents (Elt F) → (⟨S16x64x64x64x6, .f32⟩ : BufTy).Contents (Elt F)),
    binary main_v40 main_v41 main_v42 (Host.powf : (⟨S16x64x64x64x6, .f32⟩ : BufTy).Contents (Elt F) → (⟨S16x64x64x64x6, .f32⟩ : BufTy).Contents (Elt F) → (⟨S16x64x64x64x6, .f32⟩ : BufTy).Contents (Elt F)),
    unary main_v32 main_v43 (Host.negf : (⟨S1x1x1x1x6, .f32⟩ : BufTy).Contents (Elt F) → (⟨S1x1x1x1x6, .f32⟩ : BufTy).Contents (Elt F)),
    unary main_v22 main_v44 (broadcastInDim S16x64x64x64x1 ![0, 1, 2, 3] bcast_S16x64x64x64_S16x64x64x64x1_0_1_2_3 : (⟨S16x64x64x64, .f32⟩ : BufTy).Contents (Elt F) → (⟨S16x64x64x64x1, .f32⟩ : BufTy).Contents (Elt F)),
    unary main_v43 main_v45 (broadcastInDim S16x64x64x64x6 ![0, 1, 2, 3, 4] bcast_S1x1x1x1x6_S16x64x64x64x6_0_1_2_3_4 : (⟨S1x1x1x1x6, .f32⟩ : BufTy).Contents (Elt F) → (⟨S16x64x64x64x6, .f32⟩ : BufTy).Contents (Elt F)),
    unary main_v44 main_v46 (broadcastInDim S16x64x64x64x6 ![0, 1, 2, 3, 4] bcast_S16x64x64x64x1_S16x64x64x64x6_0_1_2_3_4 : (⟨S16x64x64x64x1, .f32⟩ : BufTy).Contents (Elt F) → (⟨S16x64x64x64x6, .f32⟩ : BufTy).Contents (Elt F)),
    binary main_v45 main_v46 main_v47 (mulf : (⟨S16x64x64x64x6, .f32⟩ : BufTy).Contents (Elt F) → (⟨S16x64x64x64x6, .f32⟩ : BufTy).Contents (Elt F) → (⟨S16x64x64x64x6, .f32⟩ : BufTy).Contents (Elt F)),
    unary main_v47 main_v48 (Host.exp : (⟨S16x64x64x64x6, .f32⟩ : BufTy).Contents (Elt F) → (⟨S16x64x64x64x6, .f32⟩ : BufTy).Contents (Elt F)),
    binary main_v42 main_v48 main_v49 (mulf : (⟨S16x64x64x64x6, .f32⟩ : BufTy).Contents (Elt F) → (⟨S16x64x64x64x6, .f32⟩ : BufTy).Contents (Elt F) → (⟨S16x64x64x64x6, .f32⟩ : BufTy).Contents (Elt F)),
    unary main_v30 main_v50 (broadcastInDim S16x64x64x64x1 ![0, 1, 2, 3] bcast_S16x64x64x64_S16x64x64x64x1_0_1_2_3 : (⟨S16x64x64x64, .f32⟩ : BufTy).Contents (Elt F) → (⟨S16x64x64x64x1, .f32⟩ : BufTy).Contents (Elt F)),
    unary main_v50 main_v51 (broadcastInDim S16x64x64x64x6 ![0, 1, 2, 3, 4] bcast_S16x64x64x64x1_S16x64x64x64x6_0_1_2_3_4 : (⟨S16x64x64x64x1, .f32⟩ : BufTy).Contents (Elt F) → (⟨S16x64x64x64x6, .f32⟩ : BufTy).Contents (Elt F)),
    binary main_v49 main_v51 main_v52 (mulf : (⟨S16x64x64x64x6, .f32⟩ : BufTy).Contents (Elt F) → (⟨S16x64x64x64x6, .f32⟩ : BufTy).Contents (Elt F) → (⟨S16x64x64x64x6, .f32⟩ : BufTy).Contents (Elt F)),
    nullary main_cst_4 (constant S_ .f32 0x00000000#32),
    binary main_v52 main_cst_4 main_v53 ((fun x v => Host.reduceAdd x v reducesTo_S16x64x64x64x6_S16x64x6_d2_3 h_S_) : (⟨S16x64x64x64x6, .f32⟩ : BufTy).Contents (Elt F) → (⟨S_, .f32⟩ : BufTy).Contents (Elt F) → (⟨S16x64x6, .f32⟩ : BufTy).Contents (Elt F)),
    reshape main_cst_1 main_v54 rfl shapeCasts_S6_S1x1x6,
    nullary main_cst_5 (constant S_ .f32 0x3F800000#32),
    unary main_cst_5 main_v55 (broadcastInDim S1x1x6 ![] bcast_S_S1x1x6 : (⟨S_, .f32⟩ : BufTy).Contents (Elt F) → (⟨S1x1x6, .f32⟩ : BufTy).Contents (Elt F)),
    binary main_v55 main_v54 main_v56 (subf : (⟨S1x1x6, .f32⟩ : BufTy).Contents (Elt F) → (⟨S1x1x6, .f32⟩ : BufTy).Contents (Elt F) → (⟨S1x1x6, .f32⟩ : BufTy).Contents (Elt F)),
    nullary main_cst_6 (constant S_ .f32 0x40000000#32),
    unary main_cst_6 main_v57 (broadcastInDim S1x1x6 ![] bcast_S_S1x1x6 : (⟨S_, .f32⟩ : BufTy).Contents (Elt F) → (⟨S1x1x6, .f32⟩ : BufTy).Contents (Elt F)),
    binary main_v57 main_v56 main_v58 (Host.powf : (⟨S1x1x6, .f32⟩ : BufTy).Contents (Elt F) → (⟨S1x1x6, .f32⟩ : BufTy).Contents (Elt F) → (⟨S1x1x6, .f32⟩ : BufTy).Contents (Elt F)),
    unary main_v58 main_v59 (broadcastInDim S16x64x6 ![0, 1, 2] bcast_S1x1x6_S16x64x6_0_1_2 : (⟨S1x1x6, .f32⟩ : BufTy).Contents (Elt F) → (⟨S16x64x6, .f32⟩ : BufTy).Contents (Elt F)),
    binary main_v53 main_v59 main_v60 (mulf : (⟨S16x64x6, .f32⟩ : BufTy).Contents (Elt F) → (⟨S16x64x6, .f32⟩ : BufTy).Contents (Elt F) → (⟨S16x64x6, .f32⟩ : BufTy).Contents (Elt F)) ]

set_option maxRecDepth 4096 in
set_option maxHeartbeats 4000000 in
/-- The program is the straight line of its operations. -/
theorem main_eq (c : Dev nD) : main (F := F) c = seq ops := rfl
/-- No buffer of the signature is scoped. -/
theorem scopedRefs_eq : (Finset.univ.filter fun b : Ref sig .tc => b.isScoped) = ∅ := by decide
/-- No semaphore of the signature is scoped. -/
theorem scopedSems_eq : (Finset.univ.filter fun sm : SemLoc sig => sm.isScoped .tc) = ∅ := by decide
/-- Every operation touches TensorCore references only. -/
theorem ops_sub : (ops : List (HloOp τ sig (Elt F))).Forall fun op => op.bufs ⊆ tcRefs τ sig :=
  ⟨nullary_bufs_sub .., nullary_bufs_sub .., nullary_bufs_sub .., unary_bufs_sub .., unary_bufs_sub .., unary_bufs_sub .., unary_bufs_sub .., binary_bufs_sub .., unary_bufs_sub .., unary_bufs_sub .., unary_bufs_sub .., binary_bufs_sub .., unary_bufs_sub .., unary_bufs_sub .., binary_bufs_sub .., nullary_bufs_sub .., unary_bufs_sub .., binary_bufs_sub .., binary_bufs_sub .., binary_bufs_sub .., binary_bufs_sub .., unary_bufs_sub .., unary_bufs_sub .., binary_bufs_sub .., binary_bufs_sub .., unary_bufs_sub .., binary_bufs_sub .., unary_bufs_sub .., unary_bufs_sub .., unary_bufs_sub .., unary_bufs_sub .., binary_bufs_sub .., unary_bufs_sub .., unary_bufs_sub .., binary_bufs_sub .., reshape_bufs_sub .., reshape_bufs_sub .., reshape_bufs_sub .., unary_bufs_sub .., unary_bufs_sub .., unary_bufs_sub .., unary_bufs_sub .., binary_bufs_sub .., nullary_bufs_sub .., unary_bufs_sub .., binary_bufs_sub .., unary_bufs_sub .., binary_bufs_sub .., unary_bufs_sub .., unary_bufs_sub .., unary_bufs_sub .., unary_bufs_sub .., binary_bufs_sub .., unary_bufs_sub .., binary_bufs_sub .., unary_bufs_sub .., unary_bufs_sub .., binary_bufs_sub .., nullary_bufs_sub .., binary_bufs_sub .., reshape_bufs_sub .., nullary_bufs_sub .., unary_bufs_sub .., binary_bufs_sub .., nullary_bufs_sub .., unary_bufs_sub .., binary_bufs_sub .., unary_bufs_sub .., binary_bufs_sub ..⟩

/-! ## The result as a function of the three arguments

Indices below: `b` a batch element, `i` the centre atom, `j` and `k` the two neighbours, `e` a space axis, `l` an
output channel. Every stage is one of the program's operations, or a short chain of them, as a function of its operands. -/

/-- Atom `i`'s coordinates along a new neighbour axis: `(b, i, j, e) ↦ c (b, i, e)`. -/
def coordsCentre (c : FVec F S16x64x3 .f32) : FVec F S16x64x64x3 .f32 :=
  broadcastInDim S16x64x64x3 ![0, 1, 2, 3] bcast_S16x64x1x3_S16x64x64x3_0_1_2_3
    (broadcastInDim S16x64x1x3 ![0, 1, 3] bcast_S16x64x3_S16x64x1x3_0_1_3 c)

/-- Atom `j`'s coordinates along a new centre axis: `(b, i, j, e) ↦ c (b, j, e)`. -/
def coordsNeighbour (c : FVec F S16x64x3 .f32) : FVec F S16x64x64x3 .f32 :=
  broadcastInDim S16x64x64x3 ![0, 1, 2, 3] bcast_S16x1x64x3_S16x64x64x3_0_1_2_3
    (broadcastInDim S16x1x64x3 ![0, 2, 3] bcast_S16x64x3_S16x1x64x3_0_2_3 c)

/-- The displacements `(b, i, j, e) ↦ c (b, i, e) - c (b, j, e)`. -/
def disp (c : FVec F S16x64x3 .f32) : FVec F S16x64x64x3 .f32 :=
  subf (coordsCentre c) (coordsNeighbour c)

/-- The numerators `(b, i, j, k) ↦ Σ_e disp (b, i, j, e) · disp (b, i, k, e)`: the displacements contracted with
    themselves over the space axis, batched over `b` and `i`. -/
def numer (c : FVec F S16x64x3 .f32) : FVec F S16x64x64x64 .f32 :=
  Host.dotGeneral dot_S16x64x64x3_S16x64x64x3_S16x64x64x64_3_3_2_2_01_01 none (disp c) (disp c)

/-- A pair array read at (centre, first neighbour), with a unit last axis: `(b, i, j, 0) ↦ x (b, i, j)`. -/
def pairIJ (x : FVec F S16x64x64 .f32) : FVec F S16x64x64x1 .f32 :=
  broadcastInDim S16x64x64x1 ![0, 1, 2] bcast_S16x64x64_S16x64x64x1_0_1_2 x
/-- A pair array read at (centre, second neighbour), with a unit third axis: `(b, i, 0, k) ↦ x (b, i, k)`. -/
def pairIK (x : FVec F S16x64x64 .f32) : FVec F S16x64x1x64 .f32 :=
  broadcastInDim S16x64x1x64 ![0, 1, 3] bcast_S16x64x64_S16x64x1x64_0_1_3 x
/-- A pair array read at the two neighbours, with a unit second axis: `(b, 0, j, k) ↦ x (b, j, k)`. -/
def pairJK (x : FVec F S16x64x64 .f32) : FVec F S16x1x64x64 .f32 :=
  broadcastInDim S16x1x64x64 ![0, 2, 3] bcast_S16x64x64_S16x1x64x64_0_2_3 x

/-- The unit last axis repeated: `(b, i, j, k) ↦ y (b, i, j, 0)`. -/
def overK (y : FVec F S16x64x64x1 .f32) : FVec F S16x64x64x64 .f32 :=
  broadcastInDim S16x64x64x64 ![0, 1, 2, 3] bcast_S16x64x64x1_S16x64x64x64_0_1_2_3 y
/-- The unit third axis repeated: `(b, i, j, k) ↦ y (b, i, 0, k)`. -/
def overJ (y : FVec F S16x64x1x64 .f32) : FVec F S16x64x64x64 .f32 :=
  broadcastInDim S16x64x64x64 ![0, 1, 2, 3] bcast_S16x64x1x64_S16x64x64x64_0_1_2_3 y
/-- The unit second axis repeated: `(b, i, j, k) ↦ y (b, 0, j, k)`. -/
def overI (y : FVec F S16x1x64x64 .f32) : FVec F S16x64x64x64 .f32 :=
  broadcastInDim S16x64x64x64 ![0, 1, 2, 3] bcast_S16x1x64x64_S16x64x64x64_0_1_2_3 y

/-- The denominators `(b, i, j, k) ↦ d (b, i, j) · d (b, i, k) + ε`. -/
def denom (d : FVec F S16x64x64 .f32) : FVec F S16x64x64x64 .f32 :=
  addf (mulf (overK (pairIJ d)) (overJ (pairIK d)))
    (broadcastInDim S16x64x64x64 ![] bcast_S_S16x64x64x64 (constant S_ .f32 0x3727C5AC#32))

/-- The quotients `numer / denom`, whose cosine the terms take. -/
def angle (d : FVec F S16x64x64 .f32) (c : FVec F S16x64x3 .f32) : FVec F S16x64x64x64 .f32 :=
  Host.divf (numer c) (denom d)

/-- `(b, i, j, k) ↦ d (b, i, j)² + d (b, i, k)² + d (b, j, k)²`. -/
def sumSquares (d : FVec F S16x64x64 .f32) : FVec F S16x64x64x64 .f32 :=
  addf (addf (overK (mulf (pairIJ d) (pairIJ d))) (overJ (mulf (pairIK d) (pairIK d))))
    (overI (mulf (pairJK d) (pairJK d)))

/-- `(b, i, j, k) ↦ w (b, i, j) · w (b, i, k) · w (b, j, k)`. -/
def cutoffs (w : FVec F S16x64x64 .f32) : FVec F S16x64x64x64 .f32 :=
  mulf (mulf (overK (pairIJ w)) (overJ (pairIK w))) (overI (pairJK w))

/-- The channels' signs `λ_l`, as a table of six literals. -/
def lamTable : FVec F S6 .f32 := fun i => FloatOps.ofBits .f32 (lit0 (S6.rowMajor i))
/-- The channels' exponents `ζ_l`, as a table of six literals. -/
def zetaTable : FVec F S6 .f32 := fun i => FloatOps.ofBits .f32 (lit1 (S6.rowMajor i))
/-- The literal `4`, once per channel. -/
def fourTable : FVec F S6 .f32 := constant S6 .f32 0x40800000#32

/-- A per-channel table under four leading unit axes: `(0, 0, 0, 0, l) ↦ v l`. -/
def chanRow (v : FVec F S6 .f32) : FVec F S1x1x1x1x6 .f32 :=
  shapeCast S1x1x1x1x6 v shapeCasts_S6_S1x1x1x1x6
/-- Such a row repeated over every triple: `(b, i, j, k, l) ↦ y (0, 0, 0, 0, l)`. -/
def overTriples (y : FVec F S1x1x1x1x6 .f32) : FVec F S16x64x64x64x6 .f32 :=
  broadcastInDim S16x64x64x64x6 ![0, 1, 2, 3, 4] bcast_S1x1x1x1x6_S16x64x64x64x6_0_1_2_3_4 y
/-- A per-triple array repeated over the channels: `(b, i, j, k, l) ↦ x (b, i, j, k)`. -/
def overChannels (x : FVec F S16x64x64x64 .f32) : FVec F S16x64x64x64x6 .f32 :=
  broadcastInDim S16x64x64x64x6 ![0, 1, 2, 3, 4] bcast_S16x64x64x64x1_S16x64x64x64x6_0_1_2_3_4
    (broadcastInDim S16x64x64x64x1 ![0, 1, 2, 3] bcast_S16x64x64x64_S16x64x64x64x1_0_1_2_3 x)

/-- The angular factors `(b, i, j, k, l) ↦ (1 + λ_l · cos (angle (b, i, j, k)))^ζ_l`. -/
def angular (d : FVec F S16x64x64 .f32) (c : FVec F S16x64x3 .f32) : FVec F S16x64x64x64x6 .f32 :=
  Host.powf
    (addf (broadcastInDim S16x64x64x64x6 ![] bcast_S_S16x64x64x64x6 (constant S_ .f32 0x3F800000#32))
      (mulf (overTriples (chanRow lamTable)) (overChannels (Host.cos (angle d c)))))
    (overTriples (chanRow zetaTable))

/-- The radial factors `(b, i, j, k, l) ↦ exp (-4 · sumSquares (b, i, j, k))`. -/
def radial (d : FVec F S16x64x64 .f32) : FVec F S16x64x64x64x6 .f32 :=
  Host.exp (mulf (overTriples (Host.negf (chanRow fourTable))) (overChannels (sumSquares d)))

/-- The terms `(b, i, j, k, l) ↦ angular · radial · cutoffs`. -/
def terms (w d : FVec F S16x64x64 .f32) (c : FVec F S16x64x3 .f32) : FVec F S16x64x64x64x6 .f32 :=
  mulf (mulf (angular d c) (radial d)) (overChannels (cutoffs w))

/-- The terms summed over both neighbours, from a zero: `(b, i, l) ↦ 0 + Σ_j Σ_k terms (b, i, j, k, l)`. -/
def summed (w d : FVec F S16x64x64 .f32) (c : FVec F S16x64x3 .f32) : FVec F S16x64x6 .f32 :=
  Host.reduceAdd (terms w d c) (constant S_ .f32 0x00000000#32) reducesTo_S16x64x64x64x6_S16x64x6_d2_3 h_S_

/-- The channels' scales `(0, 0, l) ↦ 2^(1 - ζ_l)`. -/
def scales : FVec F S1x1x6 .f32 :=
  Host.powf (broadcastInDim S1x1x6 ![] bcast_S_S1x1x6 (constant S_ .f32 0x40000000#32))
    (subf (broadcastInDim S1x1x6 ![] bcast_S_S1x1x6 (constant S_ .f32 0x3F800000#32))
      (shapeCast S1x1x6 zetaTable shapeCasts_S6_S1x1x6))

/-- The program's result: `(b, i, l) ↦ summed (b, i, l) · 2^(1 - ζ_l)`. -/
def result (w d : FVec F S16x64x64 .f32) (c : FVec F S16x64x3 .f32) : FVec F S16x64x6 .f32 :=
  mulf (summed w d c) (broadcastInDim S16x64x6 ![0, 1, 2] bcast_S1x1x6_S16x64x6_0_1_2 scales)

/-! ## The run -/

set_option maxHeartbeats 4000000 in
/-- After the operations, the result buffer holds `result` of what the three argument buffers held before them. -/
theorem after_result (V : Valuation τ sig (Elt F)) :
    after ops V (Proc.devRef .tc main_v60)
      = result (V (Proc.devRef .tc main_arg0)) (V (Proc.devRef .tc main_arg1)) (V (Proc.devRef .tc main_arg2)) := by
  after_results_simp; rfl

set_option maxHeartbeats 4000000 in
/-- No operation writes the first argument. -/
theorem after_arg0 (V : Valuation τ sig (Elt F)) :
    after ops V (Proc.devRef .tc main_arg0) = V (Proc.devRef .tc main_arg0) := by
  after_results_simp

set_option maxHeartbeats 4000000 in
/-- No operation writes the second argument. -/
theorem after_arg1 (V : Valuation τ sig (Elt F)) :
    after ops V (Proc.devRef .tc main_arg1) = V (Proc.devRef .tc main_arg1) := by
  after_results_simp

set_option maxHeartbeats 4000000 in
/-- No operation writes the third argument. -/
theorem after_arg2 (V : Valuation τ sig (Elt F)) :
    after ops V (Proc.devRef .tc main_arg2) = V (Proc.devRef .tc main_arg2) := by
  after_results_simp

/-- On every device, for any float values, from any memory with zero counters: every weakly fair execution of the
    program terminates with its result buffer at `result` of the three arguments' launch contents, and the arguments
    unchanged. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v60) = result (m ((c.tc : Thread nD τ).loc main_arg0)) (m ((c.tc : Thread nD τ).loc main_arg1)) (m ((c.tc : Thread nD τ).loc main_arg2))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  (θ_run defs _ _).mono (fun _ h c => ⟨(h c main_v60).trans (after_result _),
      (h c main_arg0).trans (after_arg0 _),
      (h c main_arg1).trans (after_arg1 _),
      (h c main_arg2).trans (after_arg2 _)⟩)
    (run_seq scopedRefs_eq scopedSems_eq defs main (fun _ => ops) main_eq (fun _ => ops_sub) m ρ)

end Cert.ReferenceIdeal.RefRun

end
-- ==== Proof.RefRead.lean ====
/-
  The reference program's result, read at one index, at the ideal instance.

  `result w d c` of the run module is a composition of re-indexings (broadcasts along new axes, two reshapes of a
  six-entry table), elementwise operations, one contraction over the space axis and one sum over the two neighbour
  axes. Read at an output index `(b, i, l)` on the extended reals, each re-indexing reads its operand at one index,
  each elementwise operation is the extended reals' own, the contraction is the three-term sum over the space axis and
  the host sum is its initial zero plus the double sum over the neighbours. Put together, the result at `(b, i, l)` is
  the direct spelling `Cert.Angular.directValue w d c b i l` of the angular symmetry function, term for term. No
  finiteness of the inputs is used.
-/
import proofs.«175770_j68315749810414_2_alg».proof.Proof.RefRun
import proofs.«175770_j68315749810414_2_alg».proof.Proof.AngularSpec
import Idealize.ShloMosaic.PureOps.Ideal.Laws
import Idealize.ShloMosaic.Lib.ValueIdx
import Idealize.ShloMosaic.Lib.Pipeline.Value

noncomputable section

open scoped BigOperators

namespace Cert.ReferenceIdeal.RefRun

open Cert.ReferenceIdeal Cert.ReferenceIdeal.Gen Idealize.ShloMosaic Idealize.ShloMosaic.ValueIdx

/-! ## The re-indexing stages read at an index (any float instance) -/

section Layout

variable {F : FTy → Type} [FloatOps F]

/-- Read at `(b, i, j, e)`, the centre's coordinates are `c (b, i, e)`. -/
theorem coordsCentre_apply (c : FVec F S16x64x3 .f32) (b : Fin 16) (i j : Fin 64) (e : Fin 3) :
    coordsCentre c (ix4 b i j e) = c (ix3 b i e) := by
  unfold coordsCentre
  refine (broadcastInDim_apply _ _ _ (ix4 b i j e) (ix4 b i (0 : Fin 1) e) fun a => ?_).trans
    (broadcastInDim_apply _ _ _ (ix4 b i (0 : Fin 1) e) (ix3 b i e) fun a => ?_)
  · match a with | ⟨0, _⟩ => rfl | ⟨1, _⟩ => rfl | ⟨2, _⟩ => rfl | ⟨3, _⟩ => rfl
  · match a with | ⟨0, _⟩ => rfl | ⟨1, _⟩ => rfl | ⟨2, _⟩ => rfl

/-- Read at `(b, i, j, e)`, the neighbour's coordinates are `c (b, j, e)`. -/
theorem coordsNeighbour_apply (c : FVec F S16x64x3 .f32) (b : Fin 16) (i j : Fin 64) (e : Fin 3) :
    coordsNeighbour c (ix4 b i j e) = c (ix3 b j e) := by
  unfold coordsNeighbour
  refine (broadcastInDim_apply _ _ _ (ix4 b i j e) (ix4 b (0 : Fin 1) j e) fun a => ?_).trans
    (broadcastInDim_apply _ _ _ (ix4 b (0 : Fin 1) j e) (ix3 b j e) fun a => ?_)
  · match a with | ⟨0, _⟩ => rfl | ⟨1, _⟩ => rfl | ⟨2, _⟩ => rfl | ⟨3, _⟩ => rfl
  · match a with | ⟨0, _⟩ => rfl | ⟨1, _⟩ => rfl | ⟨2, _⟩ => rfl

/-- `pairIJ x` at `(b, i, j, 0)` is `x (b, i, j)`. -/
theorem pairIJ_apply (x : FVec F S16x64x64 .f32) (b : Fin 16) (i j : Fin 64) :
    pairIJ x (ix4 b i j (0 : Fin 1)) = x (ix3 b i j) :=
  broadcastInDim_apply _ _ _ (ix4 b i j (0 : Fin 1)) (ix3 b i j) fun a => by
    match a with | ⟨0, _⟩ => rfl | ⟨1, _⟩ => rfl | ⟨2, _⟩ => rfl

/-- `pairIK x` at `(b, i, 0, k)` is `x (b, i, k)`. -/
theorem pairIK_apply (x : FVec F S16x64x64 .f32) (b : Fin 16) (i k : Fin 64) :
    pairIK x (ix4 b i (0 : Fin 1) k) = x (ix3 b i k) :=
  broadcastInDim_apply _ _ _ (ix4 b i (0 : Fin 1) k) (ix3 b i k) fun a => by
    match a with | ⟨0, _⟩ => rfl | ⟨1, _⟩ => rfl | ⟨2, _⟩ => rfl

/-- `pairJK x` at `(b, 0, j, k)` is `x (b, j, k)`. -/
theorem pairJK_apply (x : FVec F S16x64x64 .f32) (b : Fin 16) (j k : Fin 64) :
    pairJK x (ix4 b (0 : Fin 1) j k) = x (ix3 b j k) :=
  broadcastInDim_apply _ _ _ (ix4 b (0 : Fin 1) j k) (ix3 b j k) fun a => by
    match a with | ⟨0, _⟩ => rfl | ⟨1, _⟩ => rfl | ⟨2, _⟩ => rfl

/-- `overK y` at `(b, i, j, k)` is `y (b, i, j, 0)`. -/
theorem overK_apply (y : FVec F S16x64x64x1 .f32) (b : Fin 16) (i j k : Fin 64) :
    overK y (ix4 b i j k) = y (ix4 b i j (0 : Fin 1)) :=
  broadcastInDim_apply _ _ _ (ix4 b i j k) (ix4 b i j (0 : Fin 1)) fun a => by
    match a with | ⟨0, _⟩ => rfl | ⟨1, _⟩ => rfl | ⟨2, _⟩ => rfl | ⟨3, _⟩ => rfl

/-- `overJ y` at `(b, i, j, k)` is `y (b, i, 0, k)`. -/
theorem overJ_apply (y : FVec F S16x64x1x64 .f32) (b : Fin 16) (i j k : Fin 64) :
    overJ y (ix4 b i j k) = y (ix4 b i (0 : Fin 1) k) :=
  broadcastInDim_apply _ _ _ (ix4 b i j k) (ix4 b i (0 : Fin 1) k) fun a => by
    match a with | ⟨0, _⟩ => rfl | ⟨1, _⟩ => rfl | ⟨2, _⟩ => rfl | ⟨3, _⟩ => rfl

/-- `overI y` at `(b, i, j, k)` is `y (b, 0, j, k)`. -/
theorem overI_apply (y : FVec F S16x1x64x64 .f32) (b : Fin 16) (i j k : Fin 64) :
    overI y (ix4 b i j k) = y (ix4 b (0 : Fin 1) j k) :=
  broadcastInDim_apply _ _ _ (ix4 b i j k) (ix4 b (0 : Fin 1) j k) fun a => by
    match a with | ⟨0, _⟩ => rfl | ⟨1, _⟩ => rfl | ⟨2, _⟩ => rfl | ⟨3, _⟩ => rfl

/-- `overTriples y` at `(b, i, j, k, l)` is `y (0, 0, 0, 0, l)`. -/
theorem overTriples_apply (y : FVec F S1x1x1x1x6 .f32) (b : Fin 16) (i j k : Fin 64) (l : Fin 6) :
    overTriples y (ix5 b i j k l) = y (ix5 (0 : Fin 1) (0 : Fin 1) (0 : Fin 1) (0 : Fin 1) l) :=
  broadcastInDim_apply _ _ _ (ix5 b i j k l) (ix5 (0 : Fin 1) (0 : Fin 1) (0 : Fin 1) (0 : Fin 1) l) fun a => by
    match a with | ⟨0, _⟩ => rfl | ⟨1, _⟩ => rfl | ⟨2, _⟩ => rfl | ⟨3, _⟩ => rfl | ⟨4, _⟩ => rfl

/-- `overChannels x` at `(b, i, j, k, l)` is `x (b, i, j, k)`. -/
theorem overChannels_apply (x : FVec F S16x64x64x64 .f32) (b : Fin 16) (i j k : Fin 64) (l : Fin 6) :
    overChannels x (ix5 b i j k l) = x (ix4 b i j k) := by
  unfold overChannels
  refine (broadcastInDim_apply _ _ _ (ix5 b i j k l) (ix5 b i j k (0 : Fin 1)) fun a => ?_).trans
    (broadcastInDim_apply _ _ _ (ix5 b i j k (0 : Fin 1)) (ix4 b i j k) fun a => ?_)
  · match a with | ⟨0, _⟩ => rfl | ⟨1, _⟩ => rfl | ⟨2, _⟩ => rfl | ⟨3, _⟩ => rfl | ⟨4, _⟩ => rfl
  · match a with | ⟨0, _⟩ => rfl | ⟨1, _⟩ => rfl | ⟨2, _⟩ => rfl | ⟨3, _⟩ => rfl

end Layout

section Tables

variable {F : FTy → Type} [FloatOps F]

/-- A table under four leading unit axes, read at `(0, 0, 0, 0, l)`, is the table at `l`: both have row-major position `l`. -/
theorem chanRow_apply (v : FVec F S6 .f32) (l : Fin 6) :
    chanRow v (ix5 (0 : Fin 1) (0 : Fin 1) (0 : Fin 1) (0 : Fin 1) l) = v (ix1 l) :=
  shapeCast_apply v _ (ix5 (0 : Fin 1) (0 : Fin 1) (0 : Fin 1) (0 : Fin 1) l) (ix1 l) (by
    rw [Shape.rowMajor_val_one, Shape.rowMajor_val_five]
    exact (by omega : (l : Nat) = (((0 * 1 + 0) * 1 + 0) * 1 + 0) * 6 + (l : Nat)))

/-- A table under two leading unit axes, read at `(0, 0, l)`, is the table at `l`: both have row-major position `l`. -/
theorem chanRow3_apply (v : FVec F S6 .f32) (l : Fin 6) :
    shapeCast S1x1x6 v shapeCasts_S6_S1x1x6 (ix3 (0 : Fin 1) (0 : Fin 1) l) = v (ix1 l) :=
  shapeCast_apply v _ (ix3 (0 : Fin 1) (0 : Fin 1) l) (ix1 l) (by
    rw [Shape.rowMajor_val_one, Shape.rowMajor_val_three]
    exact (by omega : (l : Nat) = (0 * 1 + 0) * 6 + (l : Nat)))

/-- The row-major position of the rank-one index `l` is `l`. -/
theorem rowMajor_ix1 (l : Fin 6) : (S6.rowMajor (ix1 l) : Fin 6) = l :=
  Fin.ext ((Shape.rowMajor_val_one (ix1 l)).trans rfl)

/-- The first literal table holds the channels' signs. -/
theorem lit0_eq (l : Fin 6) : lit0 l = Cert.Angular.lamBits l := by
  fin_cases l <;> rfl

/-- The second literal table holds the channels' exponents. -/
theorem lit1_eq (l : Fin 6) : lit1 l = Cert.Angular.zetaBits l := by
  fin_cases l <;> rfl

end Tables

/-! ## The stages read at an index, at the ideal instance -/

/-- The sign table at channel `l` is `λ_l`. -/
theorem lamTable_apply (l : Fin 6) : lamTable (F := Ideal) (ix1 l) = Cert.Angular.lam l :=
  congrArg (Ideal.ofBits .f32) ((congrArg lit0 (rowMajor_ix1 l)).trans (lit0_eq l))

/-- The exponent table at channel `l` is `ζ_l`. -/
theorem zetaTable_apply (l : Fin 6) : zetaTable (F := Ideal) (ix1 l) = Cert.Angular.zeta l :=
  congrArg (Ideal.ofBits .f32) ((congrArg lit1 (rowMajor_ix1 l)).trans (lit1_eq l))

/-- The splat of the literal `4` at any channel is `4`. -/
theorem fourTable_apply (l : Fin 6) : fourTable (F := Ideal) (ix1 l) = Cert.Angular.four := rfl

/-- The displacement at `(b, i, j, e)` is `c (b, i, e) - c (b, j, e)`. -/
theorem disp_apply (c : FVec Ideal S16x64x3 .f32) (b : Fin 16) (i j : Fin 64) (e : Fin 3) :
    disp c (ix4 b i j e) = c (ix3 b i e) - c (ix3 b j e) := by
  unfold disp
  rw [subf_apply, coordsCentre_apply, coordsNeighbour_apply]

/-- The denominator at `(b, i, j, k)` is `d (b, i, j) · d (b, i, k) + ε`. -/
theorem denom_apply (d : FVec Ideal S16x64x64 .f32) (b : Fin 16) (i j k : Fin 64) :
    denom d (ix4 b i j k) = Cert.Angular.den d b i j k := by
  unfold denom Cert.Angular.den
  rw [addf_apply, mulf_apply, overK_apply, overJ_apply, pairIJ_apply, pairIK_apply]
  rfl

/-- The sum of squares at `(b, i, j, k)` is `d (b, i, j)² + d (b, i, k)² + d (b, j, k)²`, added left to right. -/
theorem sumSquares_apply (d : FVec Ideal S16x64x64 .f32) (b : Fin 16) (i j k : Fin 64) :
    sumSquares d (ix4 b i j k) = Cert.Angular.sumSq d b i j k := by
  unfold sumSquares Cert.Angular.sumSq
  rw [addf_apply, addf_apply, overK_apply, overJ_apply, overI_apply, mulf_apply, mulf_apply, mulf_apply,
    pairIJ_apply, pairIK_apply, pairJK_apply]

/-- The cutoff product at `(b, i, j, k)` is `w (b, i, j) · w (b, i, k) · w (b, j, k)`, multiplied left to right. -/
theorem cutoffs_apply (w : FVec Ideal S16x64x64 .f32) (b : Fin 16) (i j k : Fin 64) :
    cutoffs w (ix4 b i j k) = Cert.Angular.cutoff w b i j k := by
  unfold cutoffs Cert.Angular.cutoff
  rw [mulf_apply, mulf_apply, overK_apply, overJ_apply, overI_apply, pairIJ_apply, pairIK_apply, pairJK_apply]

/-! The operand indices of the contraction, one coordinate at a time: the batch axes read the result index's first two
    coordinates, the free axis its third (left operand) or fourth (right operand), the contracted axis the contraction
    index. -/

/-- The left operand's batch axis 0 reads the result index's coordinate 0. -/
theorem numer_lhs_0 (o : S16x64x64x64.Idx) (q : dot_S16x64x64x3_S16x64x64x3_S16x64x64x64_3_3_2_2_01_01.contr.Idx) :
    (dot_S16x64x64x3_S16x64x64x3_S16x64x64x64_3_3_2_2_01_01.lhsIdx o q 0).val = (o 0).val := by
  unfold DotDims.lhsIdx
  rw [dif_pos (show (0 : Fin S16x64x64x3.rank) ∈ dot_S16x64x64x3_S16x64x64x3_S16x64x64x64_3_3_2_2_01_01.lhsBatch by decide)]
  rfl
/-- The left operand's batch axis 1 reads the result index's coordinate 1. -/
theorem numer_lhs_1 (o : S16x64x64x64.Idx) (q : dot_S16x64x64x3_S16x64x64x3_S16x64x64x64_3_3_2_2_01_01.contr.Idx) :
    (dot_S16x64x64x3_S16x64x64x3_S16x64x64x64_3_3_2_2_01_01.lhsIdx o q 1).val = (o 1).val := by
  unfold DotDims.lhsIdx
  rw [dif_pos (show (1 : Fin S16x64x64x3.rank) ∈ dot_S16x64x64x3_S16x64x64x3_S16x64x64x64_3_3_2_2_01_01.lhsBatch by decide)]
  rfl
/-- The left operand's free axis 2 reads the result index's coordinate 2. -/
theorem numer_lhs_2 (o : S16x64x64x64.Idx) (q : dot_S16x64x64x3_S16x64x64x3_S16x64x64x64_3_3_2_2_01_01.contr.Idx) :
    (dot_S16x64x64x3_S16x64x64x3_S16x64x64x64_3_3_2_2_01_01.lhsIdx o q 2).val = (o 2).val := by
  unfold DotDims.lhsIdx
  rw [dif_neg (show ¬(2 : Fin S16x64x64x3.rank) ∈ dot_S16x64x64x3_S16x64x64x3_S16x64x64x64_3_3_2_2_01_01.lhsBatch by decide),
    dif_pos (show (2 : Fin S16x64x64x3.rank) ∈ dot_S16x64x64x3_S16x64x64x3_S16x64x64x64_3_3_2_2_01_01.lhsNonContracting by decide)]
  rfl
/-- The left operand's contracted axis 3 reads the contraction index. -/
theorem numer_lhs_3 (o : S16x64x64x64.Idx) (q : dot_S16x64x64x3_S16x64x64x3_S16x64x64x64_3_3_2_2_01_01.contr.Idx) :
    (dot_S16x64x64x3_S16x64x64x3_S16x64x64x64_3_3_2_2_01_01.lhsIdx o q 3).val = (q ⟨0, by decide⟩).val :=
  dot_S16x64x64x3_S16x64x64x3_S16x64x64x64_3_3_2_2_01_01.lhsIdx_val_of_single rfl o q
/-- The right operand's batch axis 0 reads the result index's coordinate 0. -/
theorem numer_rhs_0 (o : S16x64x64x64.Idx) (q : dot_S16x64x64x3_S16x64x64x3_S16x64x64x64_3_3_2_2_01_01.contr.Idx) :
    (dot_S16x64x64x3_S16x64x64x3_S16x64x64x64_3_3_2_2_01_01.rhsIdx o q 0).val = (o 0).val := by
  unfold DotDims.rhsIdx
  rw [dif_pos (show (0 : Fin S16x64x64x3.rank) ∈ dot_S16x64x64x3_S16x64x64x3_S16x64x64x64_3_3_2_2_01_01.rhsBatch by decide)]
  rfl
/-- The right operand's batch axis 1 reads the result index's coordinate 1. -/
theorem numer_rhs_1 (o : S16x64x64x64.Idx) (q : dot_S16x64x64x3_S16x64x64x3_S16x64x64x64_3_3_2_2_01_01.contr.Idx) :
    (dot_S16x64x64x3_S16x64x64x3_S16x64x64x64_3_3_2_2_01_01.rhsIdx o q 1).val = (o 1).val := by
  unfold DotDims.rhsIdx
  rw [dif_pos (show (1 : Fin S16x64x64x3.rank) ∈ dot_S16x64x64x3_S16x64x64x3_S16x64x64x64_3_3_2_2_01_01.rhsBatch by decide)]
  rfl
/-- The right operand's free axis 2 reads the result index's coordinate 3. -/
theorem numer_rhs_2 (o : S16x64x64x64.Idx) (q : dot_S16x64x64x3_S16x64x64x3_S16x64x64x64_3_3_2_2_01_01.contr.Idx) :
    (dot_S16x64x64x3_S16x64x64x3_S16x64x64x64_3_3_2_2_01_01.rhsIdx o q 2).val = (o 3).val := by
  unfold DotDims.rhsIdx
  rw [dif_neg (show ¬(2 : Fin S16x64x64x3.rank) ∈ dot_S16x64x64x3_S16x64x64x3_S16x64x64x64_3_3_2_2_01_01.rhsBatch by decide),
    dif_pos (show (2 : Fin S16x64x64x3.rank) ∈ dot_S16x64x64x3_S16x64x64x3_S16x64x64x64_3_3_2_2_01_01.rhsNonContracting by decide)]
  rfl
/-- The right operand's contracted axis 3 reads the contraction index. -/
theorem numer_rhs_3 (o : S16x64x64x64.Idx) (q : dot_S16x64x64x3_S16x64x64x3_S16x64x64x64_3_3_2_2_01_01.contr.Idx) :
    (dot_S16x64x64x3_S16x64x64x3_S16x64x64x64_3_3_2_2_01_01.rhsIdx o q 3).val = (q ⟨0, by decide⟩).val :=
  dot_S16x64x64x3_S16x64x64x3_S16x64x64x64_3_3_2_2_01_01.rhsIdx_val_of_single rfl o q

/-- The left operand's index of the contraction at result index `(b, i, j, k)` and space axis `e`. -/
theorem numer_lhsIdx (b : Fin 16) (i j k : Fin 64) (e : Fin 3) :
    dot_S16x64x64x3_S16x64x64x3_S16x64x64x64_3_3_2_2_01_01.lhsIdx (ix4 b i j k) ((contrEquiv1 dot_S16x64x64x3_S16x64x64x3_S16x64x64x64_3_3_2_2_01_01 3 rfl rfl).symm e) = ix4 b i j e := by
  have hk := contrEquiv1_symm_val dot_S16x64x64x3_S16x64x64x3_S16x64x64x64_3_3_2_2_01_01 3 rfl rfl e
  refine funext fun a => Fin.ext ?_
  match a with
  | ⟨0, _⟩ => exact numer_lhs_0 _ _
  | ⟨1, _⟩ => exact numer_lhs_1 _ _
  | ⟨2, _⟩ => exact numer_lhs_2 _ _
  | ⟨3, _⟩ => exact (numer_lhs_3 _ _).trans hk

/-- The right operand's index of the contraction at result index `(b, i, j, k)` and space axis `e`. -/
theorem numer_rhsIdx (b : Fin 16) (i j k : Fin 64) (e : Fin 3) :
    dot_S16x64x64x3_S16x64x64x3_S16x64x64x64_3_3_2_2_01_01.rhsIdx (ix4 b i j k) ((contrEquiv1 dot_S16x64x64x3_S16x64x64x3_S16x64x64x64_3_3_2_2_01_01 3 rfl rfl).symm e) = ix4 b i k e := by
  have hk := contrEquiv1_symm_val dot_S16x64x64x3_S16x64x64x3_S16x64x64x64_3_3_2_2_01_01 3 rfl rfl e
  refine funext fun a => Fin.ext ?_
  match a with
  | ⟨0, _⟩ => exact numer_rhs_0 _ _
  | ⟨1, _⟩ => exact numer_rhs_1 _ _
  | ⟨2, _⟩ => exact numer_rhs_2 _ _
  | ⟨3, _⟩ => exact (numer_rhs_3 _ _).trans hk

/-- The numerator at `(b, i, j, k)` is the dot product of the displacements `c_i - c_j` and `c_i - c_k`: the contraction's sum re-indexed by the space axis. -/
theorem numer_apply (c : FVec Ideal S16x64x3 .f32) (b : Fin 16) (i j k : Fin 64) :
    numer c (ix4 b i j k) = Cert.Angular.dotNum c b i j k := by
  unfold numer Cert.Angular.dotNum
  simp only [Host.dotGeneral]
  rw [Ideal.dotGeneral_apply, ← Equiv.sum_comp (contrEquiv1 dot_S16x64x64x3_S16x64x64x3_S16x64x64x64_3_3_2_2_01_01 3 rfl rfl).symm]
  refine Finset.sum_congr rfl fun e _ => ?_
  rw [numer_lhsIdx, numer_rhsIdx, disp_apply, disp_apply]

/-- The quotient at `(b, i, j, k)` is the numerator over the denominator there. -/
theorem angle_apply (d : FVec Ideal S16x64x64 .f32) (c : FVec Ideal S16x64x3 .f32) (b : Fin 16) (i j k : Fin 64) :
    angle d c (ix4 b i j k) = Ideal.div (Cert.Angular.dotNum c b i j k) (Cert.Angular.den d b i j k) := by
  unfold angle
  show Ideal.div (numer c (ix4 b i j k)) (denom d (ix4 b i j k)) = _
  rw [numer_apply, denom_apply]

/-- The angular factor at `(b, i, j, k, l)` is `(1 + λ_l · cos (numerator / denominator))^ζ_l`. -/
theorem angular_apply (d : FVec Ideal S16x64x64 .f32) (c : FVec Ideal S16x64x3 .f32) (b : Fin 16) (i j k : Fin 64) (l : Fin 6) :
    angular d c (ix5 b i j k l)
      = Ideal.pow (Cert.Angular.one + Cert.Angular.lam l * Ideal.cos (Ideal.div (Cert.Angular.dotNum c b i j k) (Cert.Angular.den d b i j k)))
          (Cert.Angular.zeta l) := by
  unfold angular
  show Ideal.pow (Cert.Angular.one + overTriples (chanRow (lamTable (F := Ideal))) (ix5 b i j k l) * overChannels (Host.cos (angle d c)) (ix5 b i j k l))
      (overTriples (chanRow (zetaTable (F := Ideal))) (ix5 b i j k l)) = _
  rw [overTriples_apply, overTriples_apply, overChannels_apply, chanRow_apply, chanRow_apply, lamTable_apply, zetaTable_apply]
  show Ideal.pow (Cert.Angular.one + Cert.Angular.lam l * Ideal.cos (angle d c (ix4 b i j k))) (Cert.Angular.zeta l) = _
  rw [angle_apply]

/-- The radial factor at `(b, i, j, k, l)` is `exp (-4 · (sum of squares))`, the `-4` being the negation of the literal `4`. -/
theorem radial_apply (d : FVec Ideal S16x64x64 .f32) (b : Fin 16) (i j k : Fin 64) (l : Fin 6) :
    radial d (ix5 b i j k l) = Ideal.exp (-Cert.Angular.four * Cert.Angular.sumSq d b i j k) := by
  unfold radial
  show Ideal.exp (overTriples (Host.negf (chanRow (fourTable (F := Ideal)))) (ix5 b i j k l) * overChannels (sumSquares d) (ix5 b i j k l)) = _
  rw [overTriples_apply, overChannels_apply, sumSquares_apply]
  show Ideal.exp (-(chanRow (fourTable (F := Ideal)) (ix5 (0 : Fin 1) (0 : Fin 1) (0 : Fin 1) (0 : Fin 1) l)) * _) = _
  rw [chanRow_apply, fourTable_apply]

/-- The term at `(b, i, j, k, l)` is the direct spelling's term for centre `i`, channel `l` and neighbours `j`, `k`. -/
theorem terms_apply (w d : FVec Ideal S16x64x64 .f32) (c : FVec Ideal S16x64x3 .f32) (b : Fin 16) (i j k : Fin 64) (l : Fin 6) :
    terms w d c (ix5 b i j k l) = Cert.Angular.directTerm w d c b i l j k := by
  unfold terms Cert.Angular.directTerm
  rw [mulf_apply, mulf_apply, angular_apply, radial_apply, overChannels_apply, cutoffs_apply]

/-- The sum over the source indices that drop to `(b, i, l)` when axes 2 and 3 are summed away is the double sum over
    the two neighbour coordinates. -/
theorem sum_filter_drop (h : S16x64x64x64x6.ReducesTo [2, 3] S16x64x6) (x : S16x64x64x64x6.Idx → EReal)
    (b : Fin 16) (i : Fin 64) (l : Fin 6) [DecidablePred fun q : S16x64x64x64x6.Idx => h.drop q = ix3 b i l] :
    ∑ q ∈ Finset.univ.filter (fun q => h.drop q = ix3 b i l), x q
      = ∑ j : Fin 64, ∑ k : Fin 64, x (ix5 b i j k l) := by
  have key : ∀ q : S16x64x64x64x6.Idx, h.drop q = ix3 b i l → ix5 b i (q 2) (q 3) l = q := by
    intro q hq
    have h0 : (q 0 : Nat) = b := (h.drop_apply_val_of_eq q 0 0).symm.trans (congrArg (fun z => ((z 0 : Fin 16) : Nat)) hq)
    have h1 : (q 1 : Nat) = i := (h.drop_apply_val_of_eq q 1 1).symm.trans (congrArg (fun z => ((z 1 : Fin 64) : Nat)) hq)
    have h4 : (q 4 : Nat) = l := (h.drop_apply_val_of_eq q 2 4).symm.trans (congrArg (fun z => ((z 2 : Fin 6) : Nat)) hq)
    funext a
    apply Fin.ext
    match a with
    | ⟨0, _⟩ => exact h0.symm
    | ⟨1, _⟩ => exact h1.symm
    | ⟨2, _⟩ => rfl
    | ⟨3, _⟩ => rfl
    | ⟨4, _⟩ => exact h4.symm
  rw [← Fintype.sum_prod_type']
  refine Finset.sum_nbij' (fun q => ((q 2, q 3) : Fin 64 × Fin 64)) (fun p => ix5 b i p.1 p.2 l) ?_ ?_ ?_ ?_ ?_
  · intro q _; exact Finset.mem_univ _
  · intro p _
    refine Finset.mem_filter.mpr ⟨Finset.mem_univ _, funext fun a => Fin.ext ?_⟩
    match a with
    | ⟨0, _⟩ => exact h.drop_apply_val_of_eq _ 0 0
    | ⟨1, _⟩ => exact h.drop_apply_val_of_eq _ 1 1
    | ⟨2, _⟩ => exact h.drop_apply_val_of_eq _ 2 4
  · intro q hq; exact key q (Finset.mem_filter.mp hq).2
  · intro p _; rfl
  · intro q hq; exact congrArg x (key q (Finset.mem_filter.mp hq).2).symm

/-- The host sum over the two neighbour axes at `(b, i, l)` is the zero it starts from plus the double sum of the direct spelling's terms. -/
theorem summed_apply (w d : FVec Ideal S16x64x64 .f32) (c : FVec Ideal S16x64x3 .f32) (b : Fin 16) (i : Fin 64) (l : Fin 6) :
    summed w d c (ix3 b i l)
      = Cert.Angular.zero + ∑ j : Fin 64, ∑ k : Fin 64, Cert.Angular.directTerm w d c b i l j k := by
  unfold summed Host.reduceAdd
  rw [Ideal.hostReduceAdd_def]
  unfold Ideal.hostReduceAdd
  dsimp only
  rw [sum_filter_drop]
  exact congrArg₂ (· + ·) rfl
    (Finset.sum_congr rfl fun j _ => Finset.sum_congr rfl fun k _ => terms_apply w d c b i j k l)

/-- The scale at `(0, 0, l)` is `2^(1 - ζ_l)`. -/
theorem scales_apply (l : Fin 6) :
    scales (F := Ideal) (ix3 (0 : Fin 1) (0 : Fin 1) l)
      = Ideal.pow Cert.Angular.two (Cert.Angular.one - Cert.Angular.zeta l) := by
  unfold scales
  show Ideal.pow Cert.Angular.two
      (Cert.Angular.one - shapeCast S1x1x6 (zetaTable (F := Ideal)) shapeCasts_S6_S1x1x6 (ix3 (0 : Fin 1) (0 : Fin 1) l)) = _
  rw [chanRow3_apply, zetaTable_apply]

/-- The program's result read at `(b, i, l)` is the direct spelling of the angular symmetry function there. -/
theorem result_apply (w d : FVec Ideal S16x64x64 .f32) (c : FVec Ideal S16x64x3 .f32) (b : Fin 16) (i : Fin 64) (l : Fin 6) :
    result (F := Ideal) w d c (Idealize.ShloMosaic.ValueIdx.ix3 b i l) = Cert.Angular.directValue w d c b i l := by
  have hs : broadcastInDim S16x64x6 ![0, 1, 2] bcast_S1x1x6_S16x64x6_0_1_2 (scales (F := Ideal)) (ix3 b i l)
      = Ideal.pow Cert.Angular.two (Cert.Angular.one - Cert.Angular.zeta l) :=
    (broadcastInDim_apply _ _ _ (ix3 b i l) (ix3 (0 : Fin 1) (0 : Fin 1) l) fun a => by
      match a with | ⟨0, _⟩ => rfl | ⟨1, _⟩ => rfl | ⟨2, _⟩ => rfl).trans (scales_apply l)
  unfold result Cert.Angular.directValue
  rw [mulf_apply, summed_apply, hs]

end Cert.ReferenceIdeal.RefRun

end
-- ==== Proof.Literals.lean ====
/-
  The values of the literals of the angular symmetry function.

  Each literal of `Cert.Angular` is kept in the specification as the bit pattern that denotes it; here each
  pattern is read once as the extended real it denotes: `0`, `1`, `-1`, `2`, `4`, `-4`, and per output channel the
  sign `λ_l ∈ {1, -1}`, the exponent `ζ_l ∈ {2, 4, 8}` (a natural number) and the scale `1 / 2^(ζ_l - 1)`; beside them
  the pattern of `+∞`, against which the precondition compares every input's absolute value.
  The small constant `ε` is never evaluated: all that is said of it is that it is a real number.
-/
import proofs.«175770_j68315749810414_2_alg».proof.Proof.AngularSpec

noncomputable section

namespace Cert.Angular

open Idealize.ShloMosaic

/-- The pattern of `+0.0` denotes `0`. -/
theorem zero_eq : zero = 0 := by
  simp [zero, Ideal.ofBits, Ideal.ieee]

/-- The pattern of `1.0` denotes `1`. -/
theorem one_eq : one = 1 := by
  simp [one, Ideal.ofBits, Ideal.ieee, -EReal.coe_mul]; norm_num

/-- The pattern of `-1.0` denotes the real `-1`. -/
theorem negOne_eq : negOne = ((-1 : ℝ) : EReal) := by
  simp [negOne, Ideal.ofBits, Ideal.ieee, -EReal.coe_mul]; norm_num

/-- The pattern of `2.0` denotes the real `2`. -/
theorem two_eq : two = ((2 : ℝ) : EReal) := by
  simp [two, Ideal.ofBits, Ideal.ieee, -EReal.coe_mul]; norm_num

/-- The pattern of `4.0` denotes the real `4`. -/
theorem four_eq : four = ((4 : ℝ) : EReal) := by
  simp [four, Ideal.ofBits, Ideal.ieee, -EReal.coe_mul]; norm_num

/-- The pattern of `-4.0` denotes the real `-4`. -/
theorem negFour_eq : negFour = ((-4 : ℝ) : EReal) := by
  simp [negFour, Ideal.ofBits, Ideal.ieee, -EReal.coe_mul]; norm_num

/-- The pattern of `+∞` (all ones in the exponent field, a zero fraction) denotes `⊤`. -/
theorem posInf_eq : Ideal.ofBits .f32 0x7F800000#32 = ⊤ := by
  simp [Ideal.ofBits, Ideal.ieee]

/-- `ε` is a real number (its pattern's exponent field is not all ones); its value is not used. -/
theorem eps_real : ∃ r : ℝ, eps = (r : EReal) := by
  simp [eps, Ideal.ofBits, Ideal.ieee, -EReal.coe_mul]

/-- Channel `l`'s sign `λ_l` as a real: `1, 1, 1, -1, -1, -1`. -/
def lamR : Fin 6 → ℝ
  | 0 => 1 | 1 => 1 | 2 => 1 | 3 => -1 | 4 => -1 | 5 => -1

/-- Channel `l`'s exponent `ζ_l` as a natural number: `2, 4, 8, 2, 4, 8`. -/
def zetaN : Fin 6 → ℕ
  | 0 => 2 | 1 => 4 | 2 => 8 | 3 => 2 | 4 => 4 | 5 => 8

/-- The sign literal of channel `l` denotes the real `λ_l`. -/
theorem lam_eq (l : Fin 6) : lam l = ((lamR l : ℝ) : EReal) := by
  fin_cases l <;> simp [lam, lamBits, lamR, Ideal.ofBits, Ideal.ieee, -EReal.coe_mul] <;> norm_num

/-- The exponent literal of channel `l` denotes the natural number `ζ_l`, as a real. -/
theorem zeta_eq (l : Fin 6) : zeta l = (((zetaN l : ℕ) : ℝ) : EReal) := by
  fin_cases l <;> simp [zeta, zetaBits, zetaN, Ideal.ofBits, Ideal.ieee, -EReal.coe_mul] <;> norm_num

/-- The scale literal of channel `l` denotes the dyadic rational `1 / 2^(ζ_l - 1)`: `1/2`, `1/8`, `1/128`. -/
theorem scale_eq (l : Fin 6) : scale l = ((((2 : ℝ) ^ (zetaN l - 1))⁻¹ : ℝ) : EReal) := by
  fin_cases l <;> simp [scale, scaleBits, zetaN, Ideal.ofBits, Ideal.ieee, -EReal.coe_mul] <;> norm_num

end Cert.Angular

end
-- ==== Proof.AngularLaw.lean ====
/-
  The two spellings of the angular symmetry function agree.

  `gramValue` and `directValue` (the specification) differ in five places: the numerator of θ
  (`|c_i|² - c_i·c_j - c_i·c_k + c_j·c_k` against `(c_i - c_j)·(c_i - c_k)`), the power (repeated squaring against the power
  function at the exponent `ζ_l`), the factor `-4` (one literal against the negation of the literal `4`), the bracketing of
  the product of three factors, and the scale (a dyadic literal against `2^(1 - ζ_l)`, after a sum started from zero).
  On the extended reals the first two are identities only away from the infinities: distributivity fails at `±∞`, and the
  power function answers `⊥` at a `⊥` base where a square answers `⊤`. So the law is stated where every coordinate and
  every distance is a real number and no denominator `d_ij · d_ik + ε` vanishes: then the numerator, the denominator, the
  quotient θ, its cosine and the base `1 + λ_l · cos θ` are all real numbers, and each difference is an identity of ℝ or of
  the commutative monoid of the extended reals under multiplication.
-/
import proofs.«175770_j68315749810414_2_alg».proof.Proof.Literals
import Idealize.ShloMosaic.PureOps.Ideal
import Idealize.ShloMosaic.Lib.ValueIdx

noncomputable section

open scoped BigOperators

namespace Cert.Angular

open Idealize.ShloMosaic Idealize.ShloMosaic.ValueIdx

/-- At real coordinates the Gram-matrix numerator is the dot product of the displacements:
    `|a|² - a·p - a·q + p·q = (a - p)·(a - q)`, an identity of ℝ (the nine coordinates are real, so every product, sum
    and difference is the real one). -/
theorem gramNum_eq_dotNum (c : Coords) (hc : ∀ i, ∃ r : ℝ, c i = (r : EReal)) (b : Fin 16) (i j k : Fin 64) :
    gramNum c b i j k = dotNum c b i j k := by
  obtain ⟨i0, hi0⟩ := hc (ix3 b i 0)
  obtain ⟨i1, hi1⟩ := hc (ix3 b i 1)
  obtain ⟨i2, hi2⟩ := hc (ix3 b i 2)
  obtain ⟨j0, hj0⟩ := hc (ix3 b j 0)
  obtain ⟨j1, hj1⟩ := hc (ix3 b j 1)
  obtain ⟨j2, hj2⟩ := hc (ix3 b j 2)
  obtain ⟨k0, hk0⟩ := hc (ix3 b k 0)
  obtain ⟨k1, hk1⟩ := hc (ix3 b k 1)
  obtain ⟨k2, hk2⟩ := hc (ix3 b k 2)
  simp only [gramNum, dotNum, normSq, gram, Fin.sum_univ_three, hi0, hi1, hi2, hj0, hj1, hj2, hk0, hk1, hk2,
    ← EReal.coe_mul, ← EReal.coe_add, ← EReal.coe_sub]
  congr 1; ring

/-- At real coordinates the numerator of θ is a real number. -/
theorem dotNum_real (c : Coords) (hc : ∀ i, ∃ r : ℝ, c i = (r : EReal)) (b : Fin 16) (i j k : Fin 64) :
    ∃ r : ℝ, dotNum c b i j k = (r : EReal) := by
  obtain ⟨i0, hi0⟩ := hc (ix3 b i 0)
  obtain ⟨i1, hi1⟩ := hc (ix3 b i 1)
  obtain ⟨i2, hi2⟩ := hc (ix3 b i 2)
  obtain ⟨j0, hj0⟩ := hc (ix3 b j 0)
  obtain ⟨j1, hj1⟩ := hc (ix3 b j 1)
  obtain ⟨j2, hj2⟩ := hc (ix3 b j 2)
  obtain ⟨k0, hk0⟩ := hc (ix3 b k 0)
  obtain ⟨k1, hk1⟩ := hc (ix3 b k 1)
  obtain ⟨k2, hk2⟩ := hc (ix3 b k 2)
  refine ⟨(i0 - j0) * (i0 - k0) + (i1 - j1) * (i1 - k1) + (i2 - j2) * (i2 - k2), ?_⟩
  simp only [dotNum, Fin.sum_univ_three, hi0, hi1, hi2, hj0, hj1, hj2, hk0, hk1, hk2,
    ← EReal.coe_mul, ← EReal.coe_add, ← EReal.coe_sub]

/-- At real distances the denominator `d_ij · d_ik + ε` is a real number (`ε` is one). -/
theorem den_real (d : Pairs) (hd : ∀ i, ∃ r : ℝ, d i = (r : EReal)) (b : Fin 16) (i j k : Fin 64) :
    ∃ r : ℝ, den d b i j k = (r : EReal) := by
  obtain ⟨x, hx⟩ := hd (ix3 b i j)
  obtain ⟨y, hy⟩ := hd (ix3 b i k)
  obtain ⟨e, he⟩ := eps_real
  exact ⟨x * y + e, by rw [den, hx, hy, he, ← EReal.coe_mul, ← EReal.coe_add]⟩

/-- The base of the power, `1 + λ_l · cos θ`, is a real number: the quotient of a real numerator by a nonzero real
    denominator is the real quotient, the cosine of a real is a real, and `1` and `λ_l` are reals. -/
theorem base_real (d : Pairs) (c : Coords)
    (hd : ∀ i, ∃ r : ℝ, d i = (r : EReal)) (hc : ∀ i, ∃ r : ℝ, c i = (r : EReal))
    (b : Fin 16) (i j k : Fin 64) (hden : den d b i j k ≠ 0) (l : Fin 6) :
    ∃ v : ℝ, one + lam l * Ideal.cos (Ideal.div (dotNum c b i j k) (den d b i j k)) = (v : EReal) := by
  obtain ⟨n, hn⟩ := dotNum_real c hc b i j k
  obtain ⟨m, hm⟩ := den_real d hd b i j k
  rw [hm] at hden
  refine ⟨1 + lamR l * Real.cos (n * m⁻¹), ?_⟩
  rw [hn, hm, Ideal.div, if_neg hden, ← EReal.coe_inv, ← EReal.coe_mul, Ideal.cos_coe, one_eq, lam_eq,
    ← EReal.coe_mul, ← EReal.coe_one, ← EReal.coe_add]

/-- At a real base `v` the power function at the exponent `ζ_l ∈ {2, 4, 8}` is `v^ζ_l` (a real power with a natural
    exponent is the monomial), which is what repeated squaring computes: `v²`, `(v²)²`, `((v²)²)²`. -/
theorem pow_zeta_eq_sqPow (l : Fin 6) (v : ℝ) : Ideal.pow (v : EReal) (zeta l) = sqPow l (v : EReal) := by
  rw [zeta_eq, Ideal.pow_coe_coe]
  have h : Real.rpow v ((zetaN l : ℕ) : ℝ) = v ^ zetaN l := Real.rpow_natCast v (zetaN l)
  rw [h]
  fin_cases l <;> simp only [sqPow, zetaN, ← EReal.coe_mul] <;> congr 1 <;> ring

/-- Term by term the two spellings agree: the numerators agree at real coordinates, the two powers agree at the real
    base, `-4` is the negation of `4`, and `p · (E · f) = (p · E) · f` in the monoid of the extended reals. -/
theorem gramTerm_eq_directTerm (w d : Pairs) (c : Coords)
    (hd : ∀ i, ∃ r : ℝ, d i = (r : EReal)) (hc : ∀ i, ∃ r : ℝ, c i = (r : EReal))
    (b : Fin 16) (i : Fin 64) (l : Fin 6) (j k : Fin 64) (hden : den d b i j k ≠ 0) :
    gramTerm w d c b i l j k = directTerm w d c b i l j k := by
  obtain ⟨v, hv⟩ := base_real d c hd hc b i j k hden l
  rw [gramTerm, directTerm, gramNum_eq_dotNum c hc, hv, pow_zeta_eq_sqPow, negFour_eq, four_eq, ← EReal.coe_neg,
    mul_assoc]

/-- The dyadic scale literal is `2^(1 - ζ_l)`: for a natural `n ≥ 1`, `2^(1 - n) = 1 / 2^(n - 1)`. -/
theorem scale_eq_pow (l : Fin 6) : scale l = Ideal.pow two (one - zeta l) := by
  rw [scale_eq, two_eq, one_eq, zeta_eq, ← EReal.coe_one, ← EReal.coe_sub, Ideal.pow_coe_coe]
  congr 1
  have h2 : (0 : ℝ) ≤ 2 := by norm_num
  have key : ∀ n : ℕ, 1 ≤ n → Real.rpow 2 ((1 : ℝ) - (n : ℝ)) = ((2 : ℝ) ^ (n - 1))⁻¹ := by
    intro n hn
    have : (1 : ℝ) - (n : ℝ) = -(((n - 1 : ℕ)) : ℝ) := by
      rw [Nat.cast_sub hn]; simp
    rw [this]
    show (2 : ℝ) ^ (-(((n - 1 : ℕ)) : ℝ)) = _
    rw [Real.rpow_neg h2, Real.rpow_natCast]
  exact (key (zetaN l) (by fin_cases l <;> simp [zetaN])).symm

/-- The law: where every distance and every coordinate is a real number and no denominator `d_ij · d_ik + ε` vanishes,
    the Gram-matrix spelling and the direct spelling of `out(b, i, l)` are the same extended real. -/
theorem gramValue_eq_directValue (w d : Pairs) (c : Coords)
    (hd : ∀ i, ∃ r : ℝ, d i = (r : EReal)) (hc : ∀ i, ∃ r : ℝ, c i = (r : EReal))
    (hden : ∀ (b : Fin 16) (i j k : Fin 64), den d b i j k ≠ 0)
    (b : Fin 16) (i : Fin 64) (l : Fin 6) : gramValue w d c b i l = directValue w d c b i l := by
  rw [gramValue, directValue, zero_eq, zero_add, scale_eq_pow]
  congr 1
  refine Finset.sum_congr rfl fun j _ => Finset.sum_congr rfl fun k _ => ?_
  exact gramTerm_eq_directTerm w d c hd hc b i l j k (hden b i j k)

end Cert.Angular

end
-- ==== Proof.Domain.lean ====
/-
  From the precondition to the hypotheses of the law.

  The precondition is a conjunction of four `all`s: `|w| < +∞`, `|d| < +∞` and `|c| < +∞` at every entry of the cutoff
  matrix, the distance matrix and the coordinates, and `d_ij · d_ik + ε ≠ 0` at every `(b, i, j, k)`. Read at the
  extended reals, `|x| < +∞` says `x` is neither infinity, that is, `x` is a real number; and the last conjunct, read at
  `(b, i, j, k)`, is the statement that the denominator of θ does not vanish: its two factors are the distance matrix
  broadcast along a new last axis (`d` at `(b, i, j)`) and along a new third axis (`d` at `(b, i, k)`).
-/
import proofs.«175770_j68315749810414_2_alg».proof.Proof.AngularSpec
import proofs.«175770_j68315749810414_2_alg».proof.Proof.Literals
import proofs.«175770_j68315749810414_2_alg».proof.Pre_finite_inputs
import Idealize.ShloMosaic.Lib.ReduceAll
import Idealize.ShloMosaic.Lib.ValueIdx

noncomputable section

namespace Cert.Angular

open Idealize.ShloMosaic Idealize.ShloMosaic.ValueIdx
open Cert.Pre_finite_inputs

/-- The scalar shape has one index. -/
instance : Subsingleton S_.Idx := ⟨fun a b => funext fun d => d.elim0⟩

/-- A truth value's one-bit word is `1` exactly when the truth value is `true`. -/
theorem ofBool_eq_one (p : Bool) : BitVec.ofBool p = 1#1 ↔ p = true := by cases p <;> decide

/-- An extended real whose absolute value `max x (-x)` is below `+∞` is a real number: at `⊥` and at `⊤` the absolute
    value is `⊤`. -/
theorem real_of_abs_lt_inf (x : EReal)
    (h : FloatOps.cmpf (F := Ideal) (φ := .f32) .olt (FloatOps.hostAbsf (F := Ideal) (φ := .f32) x)
      (FloatOps.ofBits (F := Ideal) .f32 0x7F800000#32) = 1#1) :
    ∃ r : ℝ, x = (r : EReal) := by
  have h' : Ideal.cmp .olt (max x (-x)) (Ideal.ofBits .f32 0x7F800000#32) = 1#1 := h
  rw [posInf_eq, Ideal.cmp, ofBool_eq_one, decide_eq_true_eq] at h'
  induction x using EReal.rec with
  | bot => simp at h'
  | coe r => exact ⟨r, rfl⟩
  | top => simp at h'

/-- On the extended reals nothing is unordered, so the predicate "unordered or not equal" is `≠`. -/
theorem ne_of_une (x y : EReal) (h : FloatOps.cmpf (F := Ideal) (φ := .f32) .une x y = 1#1) : x ≠ y := by
  have h' : Ideal.cmp .une x y = 1#1 := h
  rw [Ideal.cmp, ofBool_eq_one, decide_eq_true_eq] at h'
  exact h'

/-- The distance matrix given a new last axis of extent one and broadcast along it to `[16, 64, 64, 64]` reads, at
    `(b, i, j, k)`, `d` at `(b, i, j)`. -/
theorem bcast_ij [Facts] (d : FVec Ideal S16x64x64 .f32) (b : Fin 16) (i j k : Fin 64) :
    broadcastInDim S16x64x64x64 ![0, 1, 2, 3] Facts.bcast_S16x64x64x1_S16x64x64x64_0_1_2_3
      (broadcastInDim S16x64x64x1 ![0, 1, 2] Facts.bcast_S16x64x64_S16x64x64x1_0_1_2 d) (ix4 b i j k) = d (ix3 b i j) := by
  unfold broadcastInDim
  refine congrArg d (funext fun a => ?_)
  match a with
  | ⟨0, _⟩ => rfl
  | ⟨1, _⟩ => rfl
  | ⟨2, _⟩ => rfl

/-- The distance matrix given a new third axis of extent one and broadcast along it to `[16, 64, 64, 64]` reads, at
    `(b, i, j, k)`, `d` at `(b, i, k)`. -/
theorem bcast_ik [Facts] (d : FVec Ideal S16x64x64 .f32) (b : Fin 16) (i j k : Fin 64) :
    broadcastInDim S16x64x64x64 ![0, 1, 2, 3] Facts.bcast_S16x64x1x64_S16x64x64x64_0_1_2_3
      (broadcastInDim S16x64x1x64 ![0, 1, 3] Facts.bcast_S16x64x64_S16x64x1x64_0_1_3 d) (ix4 b i j k) = d (ix3 b i k) := by
  unfold broadcastInDim
  refine congrArg d (funext fun a => ?_)
  match a with
  | ⟨0, _⟩ => rfl
  | ⟨1, _⟩ => rfl
  | ⟨2, _⟩ => rfl

/-- The precondition decoded: every distance and every coordinate is a real number, and no denominator
    `d_ij · d_ik + ε` vanishes. (The conjunction is split into its four `all`s; an `all` that is true is true at
    every index; the element facts are the two lemmas above, the two broadcasts read at `(b, i, j, k)`, and
    the zero literal read as `0`.) -/
theorem domain_of_pre [Cert.Pre_finite_inputs.Facts] (w d : FVec Ideal Cert.Pre_finite_inputs.S16x64x64 .f32)
    (c : FVec Ideal Cert.Pre_finite_inputs.S16x64x3 .f32)
    (h : Cert.Pre_finite_inputs.fn (F := Ideal) w d c = fun _ => 1#1) :
    (∀ i, ∃ r : ℝ, d i = (r : EReal)) ∧ (∀ i, ∃ r : ℝ, c i = (r : EReal))
      ∧ ∀ (b : Fin 16) (i j k : Fin 64), den d b i j k ≠ 0 := by
  have e := congrFun h ix0
  dsimp only [fn, fn_part1] at e
  obtain ⟨e123, e4⟩ := IntOp.andi_eq_one.1 e
  obtain ⟨e12, e3⟩ := IntOp.andi_eq_one.1 e123
  obtain ⟨e1, e2⟩ := IntOp.andi_eq_one.1 e12
  refine ⟨fun i => real_of_abs_lt_inf (d i) (Host.reduce_andi_all _ _ _ _ ix0 e2 i),
    fun i => real_of_abs_lt_inf (c i) (Host.reduce_andi_all _ _ _ _ ix0 e3 i), fun b i j k => ?_⟩
  have e5 := ne_of_une _ _ (Host.reduce_andi_all _ _ _ _ ix0 e4 (ix4 b i j k))
  intro h0
  apply e5
  show broadcastInDim S16x64x64x64 ![0, 1, 2, 3] Facts.bcast_S16x64x64x1_S16x64x64x64_0_1_2_3
      (broadcastInDim S16x64x64x1 ![0, 1, 2] Facts.bcast_S16x64x64_S16x64x64x1_0_1_2 d) (ix4 b i j k)
      * broadcastInDim S16x64x64x64 ![0, 1, 2, 3] Facts.bcast_S16x64x1x64_S16x64x64x64_0_1_2_3
      (broadcastInDim S16x64x1x64 ![0, 1, 3] Facts.bcast_S16x64x64_S16x64x1x64_0_1_3 d) (ix4 b i j k)
      + eps = zero
  rw [bcast_ij, bcast_ik, zero_eq]
  exact h0

end Cert.Angular

end
-- ==== Proof.lean ====
/-
  The angular symmetry function computed two ways gives the same array on the extended reals.

  For a batch element `b`, a centre atom `i` and a channel `l` with sign `λ_l ∈ {1, -1}` and exponent `ζ_l ∈ {2, 4, 8}`,

      out(b, i, l) = 2^(1 - ζ_l) · Σ_j Σ_k (1 + λ_l cos θ_ijk)^ζ_l · exp(-4 (d_ij² + d_ik² + d_jk²)) · w_ij w_ik w_jk,
      θ_ijk = ((c_i - c_j) · (c_i - c_k)) / (d_ij d_ik + ε).

  The kernel evaluates the numerator of θ from the Gram matrix of the coordinates,
  `|c_i|² - c_i·c_j - c_i·c_k + c_j·c_k`, takes the power by repeated squaring, carries `2^(1 - ζ_l)` as a dyadic
  literal and sums over `k` before `j`; the reference takes the dot product of the displacement vectors, calls the
  power function for the power and for the scale, and sums over the pairs `(j, k)` at once.

  Where the inputs are finite the coordinates are real numbers, so the two numerators are equal (expanding the
  dot product needs distributivity, which holds among reals and fails at infinities). Where, besides, no
  denominator `d_ij d_ik + ε` vanishes, θ is a real number, its cosine lies in [-1, 1], the base `1 + λ cos θ` is a
  real and the power function at the exponents 2, 4, 8 is the repeated square; `2^(1 - ζ)` is 1/2, 1/8, 1/128, the
  kernel's literals. The remaining differences — the grouping of a product of three factors, the order of a finite
  sum, a sum started from zero — are the commutative-monoid laws of the extended reals. (At a vanishing denominator
  θ is infinite, its cosine has no value, and the square of an undefined base and the power function of it are read
  differently: the precondition excludes exactly those inputs, on which the reference itself divides by zero.)

  The pieces: `AngularSpec` states both spellings; `BodyValues` and `WholeArray` read the kernel's output array as
  the Gram-matrix spelling; `RefRun` and `RefRead` run the reference and read its result as the direct spelling;
  `AngularLaw` proves the two spellings equal at real entries with non-vanishing denominators; `Domain` reads
  those hypotheses off the precondition.
-/
import proofs.«175770_j68315749810414_2_alg».proof.Defs
import proofs.«175770_j68315749810414_2_alg».proof.Proof.Gen.Kernel
import proofs.«175770_j68315749810414_2_alg».proof.Proof.Gen.Kernel.Skeleton
import proofs.«175770_j68315749810414_2_alg».proof.Proof.Gen.Kernel.Launch
import proofs.«175770_j68315749810414_2_alg».proof.Proof.Gen.Kernel.Points
import proofs.«175770_j68315749810414_2_alg».proof.Proof.Gen.Kernel.Frame
import proofs.«175770_j68315749810414_2_alg».proof.Proof.Gen.KernelIdeal
import proofs.«175770_j68315749810414_2_alg».proof.Proof.Gen.KernelIdeal.Skeleton
import proofs.«175770_j68315749810414_2_alg».proof.Proof.Gen.KernelIdeal.Launch
import proofs.«175770_j68315749810414_2_alg».proof.Proof.Gen.KernelIdeal.Points
import proofs.«175770_j68315749810414_2_alg».proof.Proof.Gen.KernelIdeal.Frame
import proofs.«175770_j68315749810414_2_alg».proof.Proof.Gen.KernelIdeal.Value
import proofs.«175770_j68315749810414_2_alg».proof.Proof.Gen.ReferenceIdeal
import proofs.«175770_j68315749810414_2_alg».proof.Proof.Gen.Pre_finite_inputs
import proofs.«175770_j68315749810414_2_alg».proof.Proof.WholeArray
import proofs.«175770_j68315749810414_2_alg».proof.Proof.RefRun
import proofs.«175770_j68315749810414_2_alg».proof.Proof.RefRead
import proofs.«175770_j68315749810414_2_alg».proof.Proof.AngularLaw
import proofs.«175770_j68315749810414_2_alg».proof.Proof.Domain
import Idealize.ShloMosaic.Adequacy
import Idealize.ShloMosaic.Init

noncomputable section

namespace Cert.Proof

open Idealize.ShloMosaic Idealize.SL.Sem Idealize.ShloMosaic.ValueIdx

/-- The kernel as printed runs, faults nowhere and leaves its arguments as they were. -/
theorem frame_kernel : Cert.frame_Kernel := fun m ρ _ => Cert.Kernel.Gen.frame m ρ

/-- So does the kernel read on the extended reals. -/
theorem frame_kernelIdeal : Cert.frame_KernelIdeal := fun m ρ _ => Cert.KernelIdeal.Gen.frame m ρ

/-- So does the reference: its run, with the result forgotten. -/
theorem frame_referenceIdeal : Cert.frame_ReferenceIdeal := fun m ρ _ =>
  (θ_run Cert.ReferenceIdeal.defs _ _).mono (fun _ h c => (h c).2) (Cert.ReferenceIdeal.RefRun.run (F := Ideal) m ρ)

/-- Reading the kernel on the extended reals rewrote none of its operations. -/
theorem preserves : Cert.preserves_Kernel_KernelIdeal := trivial

/-- From agreeing finite arguments with no vanishing denominator, the kernel's output array (the Gram-matrix
    spelling at every `(b, i, l)`) and the reference's (the direct spelling) are one array. -/
theorem algebraic : Cert.algebraic_KernelIdeal_ReferenceIdeal := by
  intro m ρ m' ρ' hpre hagree
  refine ⟨_, Cert.KernelIdeal.Whole.run m ρ, ?_⟩
  refine (θ_run Cert.ReferenceIdeal.defs _ _).mono (fun _ h c => ⟨(h c).1.trans ?_, (h c).2⟩)
    (Cert.ReferenceIdeal.RefRun.run (F := Ideal) m' ρ')
  rw [(hagree c).1, (hagree c).2.1, (hagree c).2.2]
  obtain ⟨hd, hc, hden⟩ := Cert.Angular.domain_of_pre _ _ _ (hpre c)
  funext y
  obtain ⟨b, i, l, rfl⟩ : ∃ (b : Fin 16) (i : Fin 64) (l : Fin 6), y = ix3 b i l := ⟨y 0, y 1, y 2, eq_ix3 y⟩
  exact (Cert.ReferenceIdeal.RefRun.result_apply _ _ _ b i l).trans
    (Cert.Angular.gramValue_eq_directValue _ _ _ hd hc hden b i l).symm

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
